-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S2x2048x512 : Shape := ⟨3, ![2, 2048, 512]⟩
abbrev S2x2048x2048 : Shape := ⟨3, ![2, 2048, 2048]⟩
abbrev S2x512x256 : Shape := ⟨3, ![2, 512, 256]⟩
abbrev S2x256 : Shape := ⟨2, ![2, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S2x2048x512 : S_.BroadcastsInDim S2x2048x512 (![] : Fin 0 → Fin S2x2048x512.rank)
  reducesTo_S2x2048x512_S_d0_1_2 : S2x2048x512.ReducesTo [0, 1, 2] S_
  bcast_S_S2x2048x2048 : S_.BroadcastsInDim S2x2048x2048 (![] : Fin 0 → Fin S2x2048x2048.rank)
  reducesTo_S2x2048x2048_S_d0_1_2 : S2x2048x2048.ReducesTo [0, 1, 2] S_
  bcast_S_S2x512x256 : S_.BroadcastsInDim S2x512x256 (![] : Fin 0 → Fin S2x512x256.rank)
  reducesTo_S2x512x256_S_d0_1_2 : S2x512x256.ReducesTo [0, 1, 2] S_
  bcast_S_S2x256 : S_.BroadcastsInDim S2x256 (![] : Fin 0 → Fin S2x256.rank)
  reducesTo_S2x256_S_d0_1 : S2x256.ReducesTo [0, 1] S_

variable [Facts]

def fn_part1 {F : FTy → Type} [FloatOps F] (main_arg4 : FVec F S2x256 .f32) (main_arg5 : FVec F S2x512x256 .f32) (main_arg6 : FVec F S2x256 .f32) (main_v13 : IVec S_ 1) (main_v16 : IVec S2x512x256 1) : IVec S_ 1 :=
  let main_c_5 : IVec S_ 1 := constantI S_ 1 1#1
  let main_v17 : IVec S_ 1 := (fun x v => Host.reduce IntOp.andi x v reducesTo_S2x512x256_S_d0_1_2 h_S_) main_v16 main_c_5
  let main_v18 : IVec S_ 1 := andi main_v13 main_v17
  let main_v19 : FVec F S2x256 .f32 := Host.absf main_arg4
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2x512x256 .f32 := Host.absf main_arg5
  let main_cst_8 : FVec F S_ .f32 := constant S_ .f32 0x7F800000#32
  let main_v25 : FVec F S2x512x256 .f32 := broadcastInDim S2x512x256 ![] bcast_S_S2x512x256 main_cst_8
  let main_v26 : IVec S2x512x256 1 := cmpf .olt main_v24 main_v25
  let main_c_9 : IVec S_ 1 := constantI S_ 1 1#1
  let main_v27 : IVec S_ 1 := (fun x v => Host.reduce IntOp.andi x v reducesTo_S2x512x256_S_d0_1_2 h_S_) main_v26 main_c_9
  let main_v28 : IVec S_ 1 := andi main_v23 main_v27
  let main_v29 : FVec F S2x256 .f32 := Host.absf main_arg6
  let main_cst_10 : FVec F S_ .f32 := constant S_ .f32 0x7F800000#32
  let main_v30 : FVec F S2x256 .f32 := broadcastInDim S2x256 ![] bcast_S_S2x256 main_cst_10
  let main_v31 : IVec S2x256 1 := cmpf .olt main_v29 main_v30
  let main_c_11 : IVec S_ 1 := constantI S_ 1 1#1
  let main_v32 : IVec S_ 1 := (fun x v => Host.reduce IntOp.andi x v reducesTo_S2x256_S_d0_1 h_S_) main_v31 main_c_11
  let main_v33 : IVec S_ 1 := andi main_v28 main_v32
  main_v33

def fn {F : FTy → Type} [FloatOps F] (main_arg0 : FVec F S2048x256 .f32) (main_arg1 : FVec F S2x2048x512 .f32) (main_arg2 : FVec F S2x2048x2048 .f32) (main_arg3 : FVec F S2x512x256 .f32) (main_arg4 : FVec F S2x256 .f32) (main_arg5 : FVec F S2x512x256 .f32) (main_arg6 : FVec F S2x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : IVec S_ 1 := andi main_v3 main_v7
  let main_v9 : FVec F S2x2048x2048 .f32 := Host.absf main_arg2
  let main_cst_2 : FVec F S_ .f32 := constant S_ .f32 0x7F800000#32
  let main_v10 : FVec F S2x2048x2048 .f32 := broadcastInDim S2x2048x2048 ![] bcast_S_S2x2048x2048 main_cst_2
  let main_v11 : IVec S2x2048x2048 1 := cmpf .olt main_v9 main_v10
  let main_c_3 : IVec S_ 1 := constantI S_ 1 1#1
  let main_v12 : IVec S_ 1 := (fun x v => Host.reduce IntOp.andi x v reducesTo_S2x2048x2048_S_d0_1_2 h_S_) main_v11 main_c_3
  let main_v13 : IVec S_ 1 := andi main_v8 main_v12
  let main_v14 : FVec F S2x512x256 .f32 := Host.absf main_arg3
  let main_cst_4 : FVec F S_ .f32 := constant S_ .f32 0x7F800000#32
  let main_v15 : FVec F S2x512x256 .f32 := broadcastInDim S2x512x256 ![] bcast_S_S2x512x256 main_cst_4
  let main_v16 : IVec S2x512x256 1 := cmpf .olt main_v14 main_v15
  fn_part1 (F := F) main_arg4 main_arg5 main_arg6 main_v13 main_v16
-- ==== Kernel.lean ====
abbrev S2048x256 : Shape := ⟨2, ![2048, 256]⟩
abbrev S2x2048x512 : Shape := ⟨3, ![2, 2048, 512]⟩
abbrev S2x2048x2048 : Shape := ⟨3, ![2, 2048, 2048]⟩
abbrev S2x512x256 : Shape := ⟨3, ![2, 512, 256]⟩
abbrev S2x256 : Shape := ⟨2, ![2, 256]⟩
abbrev S512x256 : Shape := ⟨2, ![512, 256]⟩
abbrev S2x512x2048 : Shape := ⟨3, ![2, 512, 2048]⟩
abbrev S1x512x2048 : Shape := ⟨3, ![1, 512, 2048]⟩
abbrev S512x2048 : Shape := ⟨2, ![512, 2048]⟩
abbrev S512 : Shape := ⟨1, ![512]⟩
abbrev S512x1 : Shape := ⟨2, ![512, 1]⟩
abbrev S1x2048x512 : Shape := ⟨3, ![1, 2048, 512]⟩
abbrev S2048x512 : Shape := ⟨2, ![2048, 512]⟩
abbrev S512x512 : Shape := ⟨2, ![512, 512]⟩
abbrev S1x512x256 : Shape := ⟨3, ![1, 512, 256]⟩
abbrev S1x256 : Shape := ⟨2, ![1, 256]⟩
abbrev S256 : Shape := ⟨1, ![256]⟩
abbrev S1x256x256 : Shape := ⟨3, ![1, 256, 256]⟩
abbrev S256x256 : Shape := ⟨2, ![256, 256]⟩

abbrev nBuf : Space → Nat
  | .hbm => 8
  | .vmem => 11
  | .smem => 0
  | _ => 0

abbrev bufTy : (tb : Table) → Fin (tcTables nBuf tb) → BufTy
  | .hbm, ⟨0, _⟩ => ⟨S2048x256, .f32⟩
  | .hbm, ⟨1, _⟩ => ⟨S2x2048x512, .f32⟩
  | .hbm, ⟨2, _⟩ => ⟨S2x2048x2048, .f32⟩
  | .hbm, ⟨3, _⟩ => ⟨S2x512x256, .f32⟩
  | .hbm, ⟨4, _⟩ => ⟨S2x256, .f32⟩
  | .hbm, ⟨5, _⟩ => ⟨S2x512x256, .f32⟩
  | .hbm, ⟨6, _⟩ => ⟨S2x256, .f32⟩
  | .hbm, ⟨7, _⟩ => ⟨S2048x256, .f32⟩
  | .local _ .vmem, ⟨0, _⟩ => ⟨S512x256, .f32⟩
  | .local _ .vmem, ⟨1, _⟩ => ⟨S512x256, .f32⟩
  | .local _ .vmem, ⟨2, _⟩ => ⟨S2x2048x512, .f32⟩
  | .local _ .vmem, ⟨3, _⟩ => ⟨S2x512x2048, .f32⟩
  | .local _ .vmem, ⟨4, _⟩ => ⟨S2x512x2048, .f32⟩
  | .local _ .vmem, ⟨5, _⟩ => ⟨S2x512x256, .f32⟩
  | .local _ .vmem, ⟨6, _⟩ => ⟨S2x256, .f32⟩
  | .local _ .vmem, ⟨7, _⟩ => ⟨S2x512x256, .f32⟩
  | .local _ .vmem, ⟨8, _⟩ => ⟨S2x256, .f32⟩
  | .local _ .vmem, ⟨9, _⟩ => ⟨S512x256, .f32⟩
  | .local _ .vmem, ⟨10, _⟩ => ⟨S512x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S512x256_S512x256_0_0 : ∀ a, (![0, 0] : Fin 2 → Nat) a + S512x256.size a ≤ S512x256.size a
  h_S512x256 : 0 < S512x256.numel
  inb_S2x512x2048_S1x512x2048_0_0_0 : ∀ a, (![0, 0, 0] : Fin 3 → Nat) a + S1x512x2048.size a ≤ S2x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  inb_S2x2048x512_S1x2048x512_0_0_0 : ∀ a, (![0, 0, 0] : Fin 3 → Nat) a + S1x2048x512.size a ≤ S2x2048x512.size a
  h_S1x2048x512 : 0 < S1x2048x512.numel
  shapeCasts_S1x2048x512_S2048x512 : S1x2048x512.ShapeCasts S2048x512
  broadcasts_S512x1_S512x512 : S512x1.Broadcasts S512x512
  inb_S2x512x256_S1x512x256_0_0_0 : ∀ a, (![0, 0, 0] : Fin 3 → Nat) a + S1x512x256.size a ≤ S2x512x256.size a
  h_S1x512x256 : 0 < S1x512x256.numel
  shapeCasts_S1x512x256_S512x256 : S1x512x256.ShapeCasts S512x256
  inb_S2x256_S1x256_0_0 : ∀ a, (![0, 0] : Fin 2 → Nat) a + S1x256.size a ≤ S2x256.size a
  h_S1x256 : 0 < S1x256.numel
  shapeCasts_S1x256_S256 : S1x256.ShapeCasts S256
  shapeCasts_S256_S1x256 : S256.ShapeCasts S1x256
  broadcasts_S1x256_S512x256 : S1x256.Broadcasts S512x256
  inb_S2x512x256_S1x256x256_0_0_0 : ∀ a, (![0, 0, 0] : Fin 3 → Nat) a + S1x256x256.size a ≤ S2x512x256.size a
  h_S1x256x256 : 0 < S1x256x256.numel
  shapeCasts_S1x256x256_S256x256 : S1x256x256.ShapeCasts S256x256
  inb_S2x512x256_S1x256x256_0_256_0 : ∀ a, (![0, 256, 0] : Fin 3 → Nat) a + S1x256x256.size a ≤ S2x512x256.size a
  inb_S2x512x2048_S1x512x2048_1_0_0 : ∀ a, (![1, 0, 0] : Fin 3 → Nat) a + S1x512x2048.size a ≤ S2x512x2048.size a
  inb_S2x2048x512_S1x2048x512_1_0_0 : ∀ a, (![1, 0, 0] : Fin 3 → Nat) a + S1x2048x512.size a ≤ S2x2048x512.size a
  inb_S2x512x256_S1x512x256_1_0_0 : ∀ a, (![1, 0, 0] : Fin 3 → Nat) a + S1x512x256.size a ≤ S2x512x256.size a
  inb_S2x256_S1x256_1_0 : ∀ a, (![1, 0] : Fin 2 → Nat) a + S1x256.size a ≤ S2x256.size a
  inb_S2x512x256_S1x256x256_1_0_0 : ∀ a, (![1, 0, 0] : Fin 3 → Nat) a + S1x256x256.size a ≤ S2x512x256.size a
  inb_S2x512x256_S1x256x256_1_256_0 : ∀ a, (![1, 256, 0] : Fin 3 → Nat) a + S1x256x256.size a ≤ S2x512x256.size a
  dot_S512x2048_S2048x512_S512x512_1_0_0_1_n_n_wf : DotDims.WF S512x2048 S2048x512 S512x512 [1] [0] [0] [1] [] []
  dot_S512x512_S512x256_S512x256_1_0_0_1_n_n_wf : DotDims.WF S512x512 S512x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S2048x256.size a
  hwx0_0 : ∀ i : grid0.Coords, EltTy.bits .f32 = 32 ∨ (Rect.block (s := S2048x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2048x512.size a ≤ S2x2048x512.size a
  hwx0_1 : ∀ i : grid0.Coords, EltTy.bits .f32 = 32 ∨ (Rect.block (s := S2x2048x512) S2x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x2048.size a ≤ S2x2048x2048.size a
  hwx0_2 : ∀ i : grid0.Coords, EltTy.bits .f32 = 32 ∨ (Rect.block (s := S2x2048x2048) S2x512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x512x256.size a ≤ S2x512x256.size a
  hwx0_3 : ∀ i : grid0.Coords, EltTy.bits .f32 = 32 ∨ (Rect.block (s := S2x512x256) S2x512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x256.size a ≤ S2x256.size a
  hwx0_4 : ∀ i : grid0.Coords, EltTy.bits .f32 = 32 ∨ (Rect.block (s := S2x256) S2x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x512x256.size a ≤ S2x512x256.size a
  hwx0_5 : ∀ i : grid0.Coords, EltTy.bits .f32 = 32 ∨ (Rect.block (s := S2x512x256) S2x512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x256.size a ≤ S2x256.size a
  hwx0_6 : ∀ i : grid0.Coords, EltTy.bits .f32 = 32 ∨ (Rect.block (s := S2x256) S2x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S2048x256.size a
  hwx0_7 : ∀ i : grid0.Coords, EltTy.bits .f32 = 32 ∨ (Rect.block (s := S2048x256) S512x256.size (cc0_transform_7 i) (hinb0_7 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x256 : Shape := ⟨2, ![2048, 256]⟩
abbrev S2x2048x512 : Shape := ⟨3, ![2, 2048, 512]⟩
abbrev S2x2048x2048 : Shape := ⟨3, ![2, 2048, 2048]⟩
abbrev S2x512x256 : Shape := ⟨3, ![2, 512, 256]⟩
abbrev S2x256 : Shape := ⟨2, ![2, 256]⟩
abbrev S1x2048x2048 : Shape := ⟨3, ![1, 2048, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1x2048x512 : Shape := ⟨3, ![1, 2048, 512]⟩
abbrev S2048x512 : Shape := ⟨2, ![2048, 512]⟩
abbrev S1x512x256 : Shape := ⟨3, ![1, 512, 256]⟩
abbrev S512x256 : Shape := ⟨2, ![512, 256]⟩
abbrev S1x256 : Shape := ⟨2, ![1, 256]⟩
abbrev S256 : Shape := ⟨1, ![256]⟩

abbrev nBuf : Space → Nat
  | .hbm => 81
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2x2048x512, .f32⟩
  | .hbm, ⟨2, _⟩ => ⟨S2x2048x2048, .f32⟩
  | .hbm, ⟨3, _⟩ => ⟨S2x512x256, .f32⟩
  | .hbm, ⟨4, _⟩ => ⟨S2x256, .f32⟩
  | .hbm, ⟨5, _⟩ => ⟨S2x512x256, .f32⟩
  | .hbm, ⟨6, _⟩ => ⟨S2x256, .f32⟩
  | .hbm, ⟨7, _⟩ => ⟨S1x2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S1x2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S1x512x256, .f32⟩
  | .hbm, ⟨22, _⟩ => ⟨S512x256, .f32⟩
  | .hbm, ⟨23, _⟩ => ⟨S2048x256, .f32⟩
  | .hbm, ⟨24, _⟩ => ⟨S1x256, .f32⟩
  | .hbm, ⟨25, _⟩ => ⟨S256, .f32⟩
  | .hbm, ⟨26, _⟩ => ⟨S1x256, .f32⟩
  | .hbm, ⟨27, _⟩ => ⟨S2048x256, .f32⟩
  | .hbm, ⟨28, _⟩ => ⟨S2048x256, .f32⟩
  | .hbm, ⟨29, _⟩ => ⟨S_, .f32⟩
  | .hbm, ⟨30, _⟩ => ⟨S2048x256, .f32⟩
  | .hbm, ⟨31, _⟩ => ⟨S2048x256, .f32⟩
  | .hbm, ⟨32, _⟩ => ⟨S2048x512, .f32⟩
  | .hbm, ⟨33, _⟩ => ⟨S1x512x256, .f32⟩
  | .hbm, ⟨34, _⟩ => ⟨S512x256, .f32⟩
  | .hbm, ⟨35, _⟩ => ⟨S2048x256, .f32⟩
  | .hbm, ⟨36, _⟩ => ⟨S1x256, .f32⟩
  | .hbm, ⟨37, _⟩ => ⟨S256, .f32⟩
  | .hbm, ⟨38, _⟩ => ⟨S1x256, .f32⟩
  | .hbm, ⟨39, _⟩ => ⟨S2048x256, .f32⟩
  | .hbm, ⟨40, _⟩ => ⟨S2048x256, .f32⟩
  | .hbm, ⟨41, _⟩ => ⟨S_, .f32⟩
  | .hbm, ⟨42, _⟩ => ⟨S2048x256, .f32⟩
  | .hbm, ⟨43, _⟩ => ⟨S2048x256, .f32⟩
  | .hbm, ⟨44, _⟩ => ⟨S1x2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S_, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S1x2048x512, .f32⟩
  | .hbm, ⟨54, _⟩ => ⟨S2048x512, .f32⟩
  | .hbm, ⟨55, _⟩ => ⟨S2048x512, .f32⟩
  | .hbm, ⟨56, _⟩ => ⟨S2048x512, .f32⟩
  | .hbm, ⟨57, _⟩ => ⟨S2048x512, .f32⟩
  | .hbm, ⟨58, _⟩ => ⟨S1x512x256, .f32⟩
  | .hbm, ⟨59, _⟩ => ⟨S512x256, .f32⟩
  | .hbm, ⟨60, _⟩ => ⟨S2048x256, .f32⟩
  | .hbm, ⟨61, _⟩ => ⟨S1x256, .f32⟩
  | .hbm, ⟨62, _⟩ => ⟨S256, .f32⟩
  | .hbm, ⟨63, _⟩ => ⟨S1x256, .f32⟩
  | .hbm, ⟨64, _⟩ => ⟨S2048x256, .f32⟩
  | .hbm, ⟨65, _⟩ => ⟨S2048x256, .f32⟩
  | .hbm, ⟨66, _⟩ => ⟨S_, .f32⟩
  | .hbm, ⟨67, _⟩ => ⟨S2048x256, .f32⟩
  | .hbm, ⟨68, _⟩ => ⟨S2048x256, .f32⟩
  | .hbm, ⟨69, _⟩ => ⟨S2048x512, .f32⟩
  | .hbm, ⟨70, _⟩ => ⟨S1x512x256, .f32⟩
  | .hbm, ⟨71, _⟩ => ⟨S512x256, .f32⟩
  | .hbm, ⟨72, _⟩ => ⟨S2048x256, .f32⟩
  | .hbm, ⟨73, _⟩ => ⟨S1x256, .f32⟩
  | .hbm, ⟨74, _⟩ => ⟨S256, .f32⟩
  | .hbm, ⟨75, _⟩ => ⟨S1x256, .f32⟩
  | .hbm, ⟨76, _⟩ => ⟨S2048x256, .f32⟩
  | .hbm, ⟨77, _⟩ => ⟨S2048x256, .f32⟩
  | .hbm, ⟨78, _⟩ => ⟨S_, .f32⟩
  | .hbm, ⟨79, _⟩ => ⟨S2048x256, .f32⟩
  | .hbm, ⟨80, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call1_cst : Ref sig .tc := ⟨.hbm, 29, rfl⟩
abbrev main_call1_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call2_cst : Ref sig .tc := ⟨.hbm, 41, rfl⟩
abbrev main_call2_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_1 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_call3_v0 : Ref sig .tc := ⟨.hbm, 50, rfl⟩
abbrev main_call3_v1 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call4_cst : Ref sig .tc := ⟨.hbm, 66, rfl⟩
abbrev main_call4_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_call5_cst : Ref sig .tc := ⟨.hbm, 78, rfl⟩
abbrev main_call5_v0 : Ref sig .tc := ⟨.hbm, 79, rfl⟩
abbrev main_v57 : Ref sig .tc := ⟨.hbm, 80, rfl⟩

abbrev nD : Nat := 1
abbrev τ : Topo := Topo.v7x

variable {F : FTy → Type} [FloatOps F]

class Facts₀ : Prop where
  slices_S2x2048x2048_S1x2048x2048_0_0_0 : S2x2048x2048.Slices ![0, 0, 0] S1x2048x2048
  shapeCasts_S1x2048x2048_S2048x2048 : S1x2048x2048.ShapeCasts S2048x2048
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  slices_S2x2048x512_S1x2048x512_0_0_0 : S2x2048x512.Slices ![0, 0, 0] S1x2048x512
  shapeCasts_S1x2048x512_S2048x512 : S1x2048x512.ShapeCasts S2048x512
  bcast_S2048x1_S2048x512_0_1 : S2048x1.BroadcastsInDim S2048x512 (![0, 1] : Fin 2 → Fin S2048x512.rank)
  slices_S2x512x256_S1x512x256_0_0_0 : S2x512x256.Slices ![0, 0, 0] S1x512x256
  shapeCasts_S1x512x256_S512x256 : S1x512x256.ShapeCasts S512x256
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  concatenates_S2048x256_S2048x256_S2048x512_d1 : Shape.Concatenates [S2048x256, S2048x256] S2048x512 1
  slices_S2x2048x2048_S1x2048x2048_1_0_0 : S2x2048x2048.Slices ![1, 0, 0] S1x2048x2048
  slices_S2x2048x512_S1x2048x512_1_0_0 : S2x2048x512.Slices ![1, 0, 0] S1x2048x512
  slices_S2x512x256_S1x512x256_1_0_0 : S2x512x256.Slices ![1, 0, 0] S1x512x256
  slices_S2x256_S1x256_1_0 : S2x256.Slices ![1, 0] S1x256
  dot_S2048x2048_S2048x512_S2048x512_1_0_0_1_n_n_wf : DotDims.WF S2048x2048 S2048x512 S2048x512 [1] [0] [0] [1] [] []
  dot_S2048x512_S512x256_S2048x256_1_0_0_1_n_n_wf : DotDims.WF S2048x512 S512x256 S2048x256 [1] [0] [0] [1] [] []

variable [Facts₀]

def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

class Facts : Prop extends Facts₀ where

variable [Facts]
-- ==== Proof.Spec.lean ====
/-
  The mathematics of the two-step message passing, for ONE agent row, on the extended reals.

  A depth step takes the row's current state `h` (256 entries) and the row `adj` of the step's adjacency matrix
  (2048 entries) and returns
      relu( relu( (adj · a / max(eps, Σ adj)) · Wa + ba ) · Wtop  +  h · Wbot  +  bf ),
  where `a` is the step's 2048 × 512 message matrix, `Wa` the 512 × 256 aggregation weights, and `Wtop`, `Wbot`
  the upper and lower 256 rows of the 512 × 256 update weights: multiplying the concatenation `[embedding, h]` by the
  whole weight matrix is the sum of the two half products, because a sum over 512 indices is the sum over the first 256
  plus the sum over the last 256 (`sum_halves`). That splitting is the only algebraic law the comparison needs; it
  holds in every commutative additive monoid, so no finiteness of the inputs is used.

  `eps` and `zero` are kept as the float words the two programs both spell; neither is ever evaluated.
-/
import Idealize.ShloMosaic.PureOps.Ideal
import Idealize.ShloMosaic.Lib.ValueIdx

noncomputable section

namespace Cert.Dhgn

open Idealize.ShloMosaic Idealize.ShloMosaic.ValueIdx

/-- The lower clip of a row's degree, as both programs spell it. -/
abbrev eps : EReal := Ideal.ofBits .f32 0x358637BD#32
/-- The zero a rectifier compares with, as both programs spell it. -/
abbrev zero : EReal := Ideal.ofBits .f32 0x00000000#32

/-- Index `d` of the first half of a 512-axis. -/
abbrev lo (d : Fin 256) : Fin 512 := ⟨d.val, by omega⟩
/-- Index `d` of the second half of a 512-axis. -/
abbrev hi (d : Fin 256) : Fin 512 := ⟨256 + d.val, by omega⟩

/-- A sum over 512 indices is the sum over the first half plus the sum over the second half. -/
theorem sum_halves {M : Type*} [AddCommMonoid M] (f : Fin 512 → M) :
    ∑ k : Fin 512, f k = ∑ d : Fin 256, f (lo d) + ∑ d : Fin 256, f (hi d) :=
  Fin.sum_univ_add (a := 256) (b := 256) f

/-- The clipped degree of a row: `max(eps, Σ_n adj n)`. -/
def rowDeg (adj : Fin 2048 → EReal) : EReal := max eps (∑ n, adj n)

/-- The mean message of a row, entry `c`: `(Σ_n adj n · a n c) / degree`. -/
def rowAgg (adj : Fin 2048 → EReal) (a : Fin 2048 → Fin 512 → EReal) (c : Fin 512) : EReal :=
  Ideal.div (∑ n, adj n * a n c) (rowDeg adj)

/-- The row's embedding, entry `d`: `relu(Σ_c agg c · Wa c d + ba d)`. -/
def rowEmb (adj : Fin 2048 → EReal) (a : Fin 2048 → Fin 512 → EReal) (Wa : Fin 512 → Fin 256 → EReal)
    (ba : Fin 256 → EReal) (d : Fin 256) : EReal :=
  max ((∑ c, rowAgg adj a c * Wa c d) + ba d) zero

/-- One depth step of a row, entry `e`, with the update weights given as their two halves. -/
def rowStep (adj : Fin 2048 → EReal) (a : Fin 2048 → Fin 512 → EReal) (Wa : Fin 512 → Fin 256 → EReal)
    (ba : Fin 256 → EReal) (Wtop Wbot : Fin 256 → Fin 256 → EReal) (bf : Fin 256 → EReal) (h : Fin 256 → EReal)
    (e : Fin 256) : EReal :=
  max (((∑ d, rowEmb adj a Wa ba d * Wtop d e) + ∑ d, h d * Wbot d e) + bf e) zero

/-- Both depth steps of a row: step 1 applied to the result of step 0. The arguments are the row's initial state, its
    two adjacency rows, and the shared per-step matrices. -/
def rowTwo (h0 : Fin 256 → EReal) (adj : Fin 2 → Fin 2048 → EReal) (a : Fin 2 → Fin 2048 → Fin 512 → EReal)
    (Wa : Fin 2 → Fin 512 → Fin 256 → EReal) (ba : Fin 2 → Fin 256 → EReal) (Wf : Fin 2 → Fin 512 → Fin 256 → EReal)
    (bf : Fin 2 → Fin 256 → EReal) (e : Fin 256) : EReal :=
  rowStep (adj 1) (a 1) (Wa 1) (ba 1) (fun d e => Wf 1 (lo d) e) (fun d e => Wf 1 (hi d) e) (bf 1)
    (rowStep (adj 0) (a 0) (Wa 0) (ba 0) (fun d e => Wf 0 (lo d) e) (fun d e => Wf 0 (hi d) e) (bf 0) h0) e

/-- The whole result array as one function of the seven argument arrays: entry `(r, e)` is both depth steps of row
    `r`, which reads row `r` of the initial state and of each adjacency matrix, and all of the shared matrices. -/
def result (x0 : (⟨2, ![2048, 256]⟩ : Shape).Idx → EReal) (x1 : (⟨3, ![2, 2048, 512]⟩ : Shape).Idx → EReal)
    (x2 : (⟨3, ![2, 2048, 2048]⟩ : Shape).Idx → EReal) (x3 : (⟨3, ![2, 512, 256]⟩ : Shape).Idx → EReal)
    (x4 : (⟨2, ![2, 256]⟩ : Shape).Idx → EReal) (x5 : (⟨3, ![2, 512, 256]⟩ : Shape).Idx → EReal)
    (x6 : (⟨2, ![2, 256]⟩ : Shape).Idx → EReal) (r : Fin 2048) (e : Fin 256) : EReal :=
  rowTwo (fun d => x0 (ix2 r d)) (fun s n => x2 (ix3 s r n)) (fun s n c => x1 (ix3 s n c)) (fun s c d => x3 (ix3 s c d))
    (fun s d => x4 (ix2 s d)) (fun s k d => x5 (ix3 s k d)) (fun s d => x6 (ix2 s d)) e

/-- `result` as an array over the output's index type. -/
def resultArr (x0 : (⟨2, ![2048, 256]⟩ : Shape).Idx → EReal) (x1 : (⟨3, ![2, 2048, 512]⟩ : Shape).Idx → EReal)
    (x2 : (⟨3, ![2, 2048, 2048]⟩ : Shape).Idx → EReal) (x3 : (⟨3, ![2, 512, 256]⟩ : Shape).Idx → EReal)
    (x4 : (⟨2, ![2, 256]⟩ : Shape).Idx → EReal) (x5 : (⟨3, ![2, 512, 256]⟩ : Shape).Idx → EReal)
    (x6 : (⟨2, ![2, 256]⟩ : Shape).Idx → EReal) : (⟨2, ![2048, 256]⟩ : Shape).Idx → EReal :=
  fun i => result x0 x1 x2 x3 x4 x5 x6 (i 0) (i 1)

theorem resultArr_ix2 (x0 : (⟨2, ![2048, 256]⟩ : Shape).Idx → EReal) (x1 : (⟨3, ![2, 2048, 512]⟩ : Shape).Idx → EReal)
    (x2 : (⟨3, ![2, 2048, 2048]⟩ : Shape).Idx → EReal) (x3 : (⟨3, ![2, 512, 256]⟩ : Shape).Idx → EReal)
    (x4 : (⟨2, ![2, 256]⟩ : Shape).Idx → EReal) (x5 : (⟨3, ![2, 512, 256]⟩ : Shape).Idx → EReal)
    (x6 : (⟨2, ![2, 256]⟩ : Shape).Idx → EReal) (r : Fin 2048) (e : Fin 256) :
    resultArr x0 x1 x2 x3 x4 x5 x6 (ix2 r e) = result x0 x1 x2 x3 x4 x5 x6 r e := rfl

/-- `rowStep` depends on its eight function arguments only through their values. -/
theorem rowStep_congr {adj adj' : Fin 2048 → EReal} {a a' : Fin 2048 → Fin 512 → EReal} {Wa Wa' : Fin 512 → Fin 256 → EReal}
    {ba ba' : Fin 256 → EReal} {Wtop Wtop' Wbot Wbot' : Fin 256 → Fin 256 → EReal} {bf bf' h h' : Fin 256 → EReal}
    (e1 : adj = adj') (e2 : a = a') (e3 : Wa = Wa') (e4 : ba = ba') (e5 : Wtop = Wtop') (e6 : Wbot = Wbot') (e7 : bf = bf')
    (e8 : h = h') (e : Fin 256) :
    rowStep adj a Wa ba Wtop Wbot bf h e = rowStep adj' a' Wa' ba' Wtop' Wbot' bf' h' e := by
  subst e1 e2 e3 e4 e5 e6 e7 e8; rfl

/-- Entry `(r, e)` of the result, with both depth steps written out over the argument arrays: step 1 reads slab 1 of
    every per-step array, step 0 slab 0. -/
theorem result_unfold (x0 : (⟨2, ![2048, 256]⟩ : Shape).Idx → EReal) (x1 : (⟨3, ![2, 2048, 512]⟩ : Shape).Idx → EReal)
    (x2 : (⟨3, ![2, 2048, 2048]⟩ : Shape).Idx → EReal) (x3 : (⟨3, ![2, 512, 256]⟩ : Shape).Idx → EReal)
    (x4 : (⟨2, ![2, 256]⟩ : Shape).Idx → EReal) (x5 : (⟨3, ![2, 512, 256]⟩ : Shape).Idx → EReal)
    (x6 : (⟨2, ![2, 256]⟩ : Shape).Idx → EReal) (r : Fin 2048) (e : Fin 256) :
    resultArr x0 x1 x2 x3 x4 x5 x6 (ix2 r e)
      = rowStep (fun n => x2 (ix3 (1 : Fin 2) r n)) (fun n c => x1 (ix3 (1 : Fin 2) n c)) (fun c d => x3 (ix3 (1 : Fin 2) c d))
          (fun d => x4 (ix2 (1 : Fin 2) d)) (fun d e => x5 (ix3 (1 : Fin 2) (lo d) e)) (fun d e => x5 (ix3 (1 : Fin 2) (hi d) e))
          (fun e => x6 (ix2 (1 : Fin 2) e))
          (rowStep (fun n => x2 (ix3 (0 : Fin 2) r n)) (fun n c => x1 (ix3 (0 : Fin 2) n c)) (fun c d => x3 (ix3 (0 : Fin 2) c d))
            (fun d => x4 (ix2 (0 : Fin 2) d)) (fun d e => x5 (ix3 (0 : Fin 2) (lo d) e)) (fun d e => x5 (ix3 (0 : Fin 2) (hi d) e))
            (fun e => x6 (ix2 (0 : Fin 2) e)) (fun d => x0 (ix2 r d))) e := rfl

end Cert.Dhgn

end
-- ==== Proof.LibKeepdims.lean ====
/-
  Two layout readings for row statistics kept as a column (the `keepdims=True` forms): a length-a vector viewed as an
  [a, 1] column, and an [a, 1] column repeated along its unit axis to [a, b]. Both read one element of the operand.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.LibPlainDot.lean ====
/-
  A plain two-dimensional matrix product read at one entry.

  For the dimension numbers "contract the left operand's second axis with the right operand's first" (an M × K matrix
  times a K × N matrix), entry (p, q) of the product at the exact values is the sum over k of L(p, k) · R(k, q): the
  kernel's product into a zero accumulator and the host's product are this same sum.
-/
import Idealize.ShloMosaic.PureOps.Ideal.Laws
import Idealize.ShloMosaic.Lib.ValueIdx

noncomputable section

namespace Idealize.ShloMosaic.ValueIdx

/-- The contraction sum of an M × K by K × N product at output entry (p, q), re-indexed by the contracted coordinate. -/
theorem plain_contr_sum {M K N : ℕ} (L : (⟨2, ![M, K]⟩ : Shape).Idx → EReal) (R : (⟨2, ![K, N]⟩ : Shape).Idx → EReal)
    (p : Fin M) (q : Fin N) :
    ∑ k : (DotDims.plain M K N).contr.Idx,
        L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's matrix product into the zero accumulator, for any dimension record that is the plain one. -/
theorem matmul_plain_zero_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    matmul D prec L R (constant ⟨2, ![M, N]⟩ .f32 0x00000000#32) (ix2 p q) = ∑ k : Fin K, L (ix2 p k) * R (ix2 k q) := by
  subst hD
  exact (Ideal.matmul_constant_zero_apply (DotDims.plain M K N) prec L R (ix2 p q)).trans (plain_contr_sum L R p q)

/-- The host's matrix product, for any dimension record that is the plain one. -/
theorem dotGeneral_plain_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    Host.dotGeneral D prec L R (ix2 p q) = ∑ k : Fin K, L (ix2 p k) * R (ix2 k q) := by
  subst hD
  simp only [Host.dotGeneral]
  exact (Ideal.dotGeneral_apply (DotDims.plain M K N) prec _ L R (ix2 p q)).trans (plain_contr_sum L R p q)

end Idealize.ShloMosaic.ValueIdx

end
-- ==== Proof.KernelRow.lean ====
/-
  The kernel body's arithmetic, read at one entry of the 512 × 256 block it computes.

  The body's value before the last bias and rectifier of a depth step is, at block entry (p, q),
      Σ_d emb(p, d) · Wtop(d, q) + Σ_d H(p, d) · Wbot(d, q),
  where `emb` is the rectified aggregation of the block's adjacency rows and `H` the state the step starts from. The
  pieces are read one operation at a time: the row sum kept as a column, the three matrix products into zero
  accumulators (plain sums over the contracted coordinate), the column and row broadcasts, and the leading unit axis a
  load of one depth slab carries. The second depth step is the same term with `H` the first step's rectified result.
-/
import proofs.«178996_g40089224740916_retrytranche2_1659_12_alg».proof.Proof.Gen.KernelIdeal.Skeleton
import proofs.«178996_g40089224740916_retrytranche2_1659_12_alg».proof.Proof.Spec
import proofs.«178996_g40089224740916_retrytranche2_1659_12_alg».proof.Proof.LibKeepdims
import proofs.«178996_g40089224740916_retrytranche2_1659_12_alg».proof.Proof.LibPlainDot
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Cert.Dhgn

/-- A sum along the second axis of a 512 × 2048 block, at row `p`. -/
theorem rowsum_apply (X : FVec Ideal S512x2048 .f32) (p : Fin 512) :
    multiReduction .add [1] S512 X 0x00000000#32 reduces_S512x2048_S512 (.inl rfl) rfl (ix1 p)
      = ∑ n : Fin 2048, X (ix2 p n) := by
  refine (Ideal.multiReduction_add_single X 0x00000000#32 reduces_S512x2048_S512 (.inl rfl) rfl (ix1 p)).trans ?_
  exact Finset.sum_congr rfl fun n _ => congrArg X (funext fun a => Fin.ext (by
    match a with
    | ⟨0, _⟩ => rfl
    | ⟨1, _⟩ => rfl))

/-- The clipped degrees of the block's rows, kept as a column. -/
def degV (v1 : FVec Ideal S1x512x2048 .f32) : FVec Ideal S512x1 .f32 :=
  maximumf (broadcast S512x1 (Scalar.ofBits .f32 0x358637BD#32))
    (shapeCast S512x1 (multiReduction .add [1] S512 (shapeCast S512x2048 v1 shapeCasts_S1x512x2048_S512x2048) 0x00000000#32
      reduces_S512x2048_S512 (.inl rfl) rfl) shapeCasts_S512_S512x1)

theorem degV_apply (v1 : FVec Ideal S1x512x2048 .f32) (p : Fin 512) (u : Fin 1) :
    degV v1 (ix2 p u) = rowDeg (fun n => v1 (ix3 (0 : Fin 1) p n)) := by
  have e1 : (shapeCast S512x1 (multiReduction (F := Ideal) .add [1] S512 (shapeCast S512x2048 v1 shapeCasts_S1x512x2048_S512x2048) 0x00000000#32
      reduces_S512x2048_S512 (.inl rfl) rfl) shapeCasts_S512_S512x1) (ix2 p u) = ∑ n : Fin 2048, v1 (ix3 (0 : Fin 1) p n) := by
    refine (shapeCast_a_a1_apply _ shapeCasts_S512_S512x1 p u).trans ?_
    refine (rowsum_apply _ p).trans ?_
    exact Finset.sum_congr rfl fun n _ => shapeCast_1ab_ab_apply v1 shapeCasts_S1x512x2048_S512x2048 p n
  exact congrArg (max eps) e1

/-- The mean messages of the block's rows: the adjacency rows times the message matrix, each row over its clipped degree. -/
def aggV (v1 : FVec Ideal S1x512x2048 .f32) (v7 : FVec Ideal S1x2048x512 .f32) : FVec Ideal S512x512 .f32 :=
  divf (matmul dot_S512x2048_S2048x512_S512x512_1_0_0_1_n_n none (shapeCast S512x2048 v1 shapeCasts_S1x512x2048_S512x2048)
      (shapeCast S2048x512 v7 shapeCasts_S1x2048x512_S2048x512) (constant S512x512 .f32 0x00000000#32))
    (broadcastTo S512x512 (degV v1) broadcasts_S512x1_S512x512)

theorem aggV_apply (v1 : FVec Ideal S1x512x2048 .f32) (v7 : FVec Ideal S1x2048x512 .f32) (p : Fin 512) (c : Fin 512) :
    aggV v1 v7 (ix2 p c) = rowAgg (fun n => v1 (ix3 (0 : Fin 1) p n)) (fun n c => v7 (ix3 (0 : Fin 1) n c)) c := by
  have e1 : (matmul (F := Ideal) dot_S512x2048_S2048x512_S512x512_1_0_0_1_n_n none (shapeCast S512x2048 v1 shapeCasts_S1x512x2048_S512x2048)
      (shapeCast S2048x512 v7 shapeCasts_S1x2048x512_S2048x512) (constant S512x512 .f32 0x00000000#32)) (ix2 p c)
      = ∑ n : Fin 2048, v1 (ix3 (0 : Fin 1) p n) * v7 (ix3 (0 : Fin 1) n c) := by
    refine (matmul_plain_zero_apply dot_S512x2048_S2048x512_S512x512_1_0_0_1_n_n rfl none _ _ p c).trans ?_
    exact Finset.sum_congr rfl fun n _ => congrArg₂ (· * ·)
      (shapeCast_1ab_ab_apply v1 shapeCasts_S1x512x2048_S512x2048 p n)
      (shapeCast_1ab_ab_apply v7 shapeCasts_S1x2048x512_S2048x512 n c)
  have e2 : (broadcastTo S512x512 (degV v1) broadcasts_S512x1_S512x512) (ix2 p c) = rowDeg (fun n => v1 (ix3 (0 : Fin 1) p n)) :=
    (broadcastTo_a1_ab_apply (degV v1) broadcasts_S512x1_S512x512 p c).trans (degV_apply v1 p 0)
  exact congrArg₂ Ideal.div e1 e2

/-- A bias row `[1, 256]`, squeezed, re-expanded and repeated down the 512 rows, reads its entry of the column. -/
theorem biasRow_apply (b : FVec Ideal S1x256 .f32) (p : Fin 512) (d : Fin 256) :
    (broadcastTo S512x256 (shapeCast S1x256 (shapeCast S256 b shapeCasts_S1x256_S256) shapeCasts_S256_S1x256) broadcasts_S1x256_S512x256) (ix2 p d)
      = b (ix2 (0 : Fin 1) d) :=
  (broadcastTo_1b_ab_apply _ broadcasts_S1x256_S512x256 p d).trans
    ((shapeCast_a_1a_apply _ shapeCasts_S256_S1x256 (0 : Fin 1) d).trans (shapeCast_1a_a_apply b shapeCasts_S1x256_S256 d))

/-- The block's embeddings: the mean messages times the aggregation weights, plus the bias row, rectified. -/
def embV (v1 : FVec Ideal S1x512x2048 .f32) (v7 : FVec Ideal S1x2048x512 .f32) (v12 : FVec Ideal S1x512x256 .f32)
    (v15 : FVec Ideal S1x256 .f32) : FVec Ideal S512x256 .f32 :=
  maximumf (addf (matmul dot_S512x512_S512x256_S512x256_1_0_0_1_n_n none (aggV v1 v7) (shapeCast S512x256 v12 shapeCasts_S1x512x256_S512x256)
      (constant S512x256 .f32 0x00000000#32))
    (broadcastTo S512x256 (shapeCast S1x256 (shapeCast S256 v15 shapeCasts_S1x256_S256) shapeCasts_S256_S1x256) broadcasts_S1x256_S512x256))
    (broadcast S512x256 (Scalar.ofBits .f32 0x00000000#32))

theorem embV_apply (v1 : FVec Ideal S1x512x2048 .f32) (v7 : FVec Ideal S1x2048x512 .f32) (v12 : FVec Ideal S1x512x256 .f32)
    (v15 : FVec Ideal S1x256 .f32) (p : Fin 512) (d : Fin 256) :
    embV v1 v7 v12 v15 (ix2 p d) = rowEmb (fun n => v1 (ix3 (0 : Fin 1) p n)) (fun n c => v7 (ix3 (0 : Fin 1) n c))
      (fun c d => v12 (ix3 (0 : Fin 1) c d)) (fun d => v15 (ix2 (0 : Fin 1) d)) d := by
  have e1 : (matmul (F := Ideal) dot_S512x512_S512x256_S512x256_1_0_0_1_n_n none (aggV v1 v7) (shapeCast S512x256 v12 shapeCasts_S1x512x256_S512x256)
      (constant S512x256 .f32 0x00000000#32)) (ix2 p d)
      = ∑ c : Fin 512, rowAgg (fun n => v1 (ix3 (0 : Fin 1) p n)) (fun n c => v7 (ix3 (0 : Fin 1) n c)) c * v12 (ix3 (0 : Fin 1) c d) := by
    refine (matmul_plain_zero_apply dot_S512x512_S512x256_S512x256_1_0_0_1_n_n rfl none _ _ p d).trans ?_
    exact Finset.sum_congr rfl fun c _ => congrArg₂ (· * ·) (aggV_apply v1 v7 p c)
      (shapeCast_1ab_ab_apply v12 shapeCasts_S1x512x256_S512x256 c d)
  exact congrArg₂ (fun x y => max (x + y) zero) e1 (biasRow_apply v15 p d)

/-- A depth step's value before its last bias and rectifier: the embeddings times the upper half of the update weights
    plus the incoming state times the lower half. -/
def accV (H : FVec Ideal S512x256 .f32) (v1 : FVec Ideal S1x512x2048 .f32) (v7 : FVec Ideal S1x2048x512 .f32)
    (v12 : FVec Ideal S1x512x256 .f32) (v15 : FVec Ideal S1x256 .f32) (v22 v25 : FVec Ideal S1x256x256 .f32) : FVec Ideal S512x256 .f32 :=
  addf (matmul dot_S512x256_S256x256_S512x256_1_0_0_1_n_n none (embV v1 v7 v12 v15) (shapeCast S256x256 v22 shapeCasts_S1x256x256_S256x256)
      (constant S512x256 .f32 0x00000000#32))
    (matmul dot_S512x256_S256x256_S512x256_1_0_0_1_n_n none H (shapeCast S256x256 v25 shapeCasts_S1x256x256_S256x256)
      (constant S512x256 .f32 0x00000000#32))

theorem accV_apply (H : FVec Ideal S512x256 .f32) (v1 : FVec Ideal S1x512x2048 .f32) (v7 : FVec Ideal S1x2048x512 .f32)
    (v12 : FVec Ideal S1x512x256 .f32) (v15 : FVec Ideal S1x256 .f32) (v22 v25 : FVec Ideal S1x256x256 .f32) (p : Fin 512) (q : Fin 256) :
    accV H v1 v7 v12 v15 v22 v25 (ix2 p q)
      = (∑ d : Fin 256, rowEmb (fun n => v1 (ix3 (0 : Fin 1) p n)) (fun n c => v7 (ix3 (0 : Fin 1) n c))
            (fun c d => v12 (ix3 (0 : Fin 1) c d)) (fun d => v15 (ix2 (0 : Fin 1) d)) d * v22 (ix3 (0 : Fin 1) d q))
        + ∑ d : Fin 256, H (ix2 p d) * v25 (ix3 (0 : Fin 1) d q) := by
  have e1 : (matmul (F := Ideal) dot_S512x256_S256x256_S512x256_1_0_0_1_n_n none (embV v1 v7 v12 v15) (shapeCast S256x256 v22 shapeCasts_S1x256x256_S256x256)
      (constant S512x256 .f32 0x00000000#32)) (ix2 p q)
      = ∑ d : Fin 256, rowEmb (fun n => v1 (ix3 (0 : Fin 1) p n)) (fun n c => v7 (ix3 (0 : Fin 1) n c))
            (fun c d => v12 (ix3 (0 : Fin 1) c d)) (fun d => v15 (ix2 (0 : Fin 1) d)) d * v22 (ix3 (0 : Fin 1) d q) := by
    refine (matmul_plain_zero_apply dot_S512x256_S256x256_S512x256_1_0_0_1_n_n rfl none _ _ p q).trans ?_
    exact Finset.sum_congr rfl fun d _ => congrArg₂ (· * ·) (embV_apply v1 v7 v12 v15 p d)
      (shapeCast_1ab_ab_apply v22 shapeCasts_S1x256x256_S256x256 d q)
  have e2 : (matmul (F := Ideal) dot_S512x256_S256x256_S512x256_1_0_0_1_n_n none H (shapeCast S256x256 v25 shapeCasts_S1x256x256_S256x256)
      (constant S512x256 .f32 0x00000000#32)) (ix2 p q) = ∑ d : Fin 256, H (ix2 p d) * v25 (ix3 (0 : Fin 1) d q) := by
    refine (matmul_plain_zero_apply dot_S512x256_S256x256_S512x256_1_0_0_1_n_n rfl none _ _ p q).trans ?_
    exact Finset.sum_congr rfl fun d _ => congrArg (H (ix2 p d) * ·) (shapeCast_1ab_ab_apply v25 shapeCasts_S1x256x256_S256x256 d q)
  exact congrArg₂ (· + ·) e1 e2

/-- A whole depth step of the block: the value above plus the update bias row, rectified. -/
def stepV (H : FVec Ideal S512x256 .f32) (v1 : FVec Ideal S1x512x2048 .f32) (v7 : FVec Ideal S1x2048x512 .f32)
    (v12 : FVec Ideal S1x512x256 .f32) (v15 : FVec Ideal S1x256 .f32) (v22 v25 : FVec Ideal S1x256x256 .f32)
    (vb : FVec Ideal S1x256 .f32) : FVec Ideal S512x256 .f32 :=
  maximumf (addf (accV H v1 v7 v12 v15 v22 v25)
    (broadcastTo S512x256 (shapeCast S1x256 (shapeCast S256 vb shapeCasts_S1x256_S256) shapeCasts_S256_S1x256) broadcasts_S1x256_S512x256))
    (broadcast S512x256 (Scalar.ofBits .f32 0x00000000#32))

theorem stepV_apply (H : FVec Ideal S512x256 .f32) (v1 : FVec Ideal S1x512x2048 .f32) (v7 : FVec Ideal S1x2048x512 .f32)
    (v12 : FVec Ideal S1x512x256 .f32) (v15 : FVec Ideal S1x256 .f32) (v22 v25 : FVec Ideal S1x256x256 .f32)
    (vb : FVec Ideal S1x256 .f32) (p : Fin 512) (q : Fin 256) :
    stepV H v1 v7 v12 v15 v22 v25 vb (ix2 p q)
      = rowStep (fun n => v1 (ix3 (0 : Fin 1) p n)) (fun n c => v7 (ix3 (0 : Fin 1) n c)) (fun c d => v12 (ix3 (0 : Fin 1) c d))
          (fun d => v15 (ix2 (0 : Fin 1) d)) (fun d e => v22 (ix3 (0 : Fin 1) d e)) (fun d e => v25 (ix3 (0 : Fin 1) d e))
          (fun e => vb (ix2 (0 : Fin 1) e)) (fun d => H (ix2 p d)) q :=
  congrArg₂ (fun x y => max (x + y) zero) (accV_apply H v1 v7 v12 v15 v22 v25 p q) (biasRow_apply vb p q)

/-- The body's stored value is the second depth step applied to the first: the printed payloads are these terms. -/
theorem body_eq (P0 : FVec Ideal S512x256 .f32) (P1 : FVec Ideal S1x512x2048 .f32) (P2 : FVec Ideal S1x2048x512 .f32)
    (P3 : FVec Ideal S1x512x256 .f32) (P4 : FVec Ideal S1x256 .f32) (P5 P6 : FVec Ideal S1x256x256 .f32) (P7 : FVec Ideal S1x256 .f32)
    (P8 : FVec Ideal S1x512x2048 .f32) (P9 : FVec Ideal S1x2048x512 .f32) (P10 : FVec Ideal S1x512x256 .f32) (P11 : FVec Ideal S1x256 .f32)
    (P12 P13 : FVec Ideal S1x256x256 .f32) (P14 : FVec Ideal S1x256 .f32) :
    k0_pay1 (F := Ideal) (k0_pay4 (k0_pay2 P0 P1 P2 P3 P4 P5 P6) (k0_pay3 P7) P8 P9 P10 P11 P12 P13) P14
      = stepV (stepV P0 P1 P2 P3 P4 P5 P6 P7) P8 P9 P10 P11 P12 P13 P14 := rfl

/-- Entry (p, q) of the body's stored value: both depth steps of row `p`, from row `p` of the loaded state and adjacency
    slabs and the whole of the loaded shared slabs. -/
theorem body_apply (P0 : FVec Ideal S512x256 .f32) (P1 : FVec Ideal S1x512x2048 .f32) (P2 : FVec Ideal S1x2048x512 .f32)
    (P3 : FVec Ideal S1x512x256 .f32) (P4 : FVec Ideal S1x256 .f32) (P5 P6 : FVec Ideal S1x256x256 .f32) (P7 : FVec Ideal S1x256 .f32)
    (P8 : FVec Ideal S1x512x2048 .f32) (P9 : FVec Ideal S1x2048x512 .f32) (P10 : FVec Ideal S1x512x256 .f32) (P11 : FVec Ideal S1x256 .f32)
    (P12 P13 : FVec Ideal S1x256x256 .f32) (P14 : FVec Ideal S1x256 .f32) (p : Fin 512) (q : Fin 256) :
    k0_pay1 (F := Ideal) (k0_pay4 (k0_pay2 P0 P1 P2 P3 P4 P5 P6) (k0_pay3 P7) P8 P9 P10 P11 P12 P13) P14 (ix2 p q)
      = rowStep (fun n => P8 (ix3 (0 : Fin 1) p n)) (fun n c => P9 (ix3 (0 : Fin 1) n c)) (fun c d => P10 (ix3 (0 : Fin 1) c d))
          (fun d => P11 (ix2 (0 : Fin 1) d)) (fun d e => P12 (ix3 (0 : Fin 1) d e)) (fun d e => P13 (ix3 (0 : Fin 1) d e))
          (fun e => P14 (ix2 (0 : Fin 1) e))
          (rowStep (fun n => P1 (ix3 (0 : Fin 1) p n)) (fun n c => P2 (ix3 (0 : Fin 1) n c)) (fun c d => P3 (ix3 (0 : Fin 1) c d))
            (fun d => P4 (ix2 (0 : Fin 1) d)) (fun d e => P5 (ix3 (0 : Fin 1) d e)) (fun d e => P6 (ix3 (0 : Fin 1) d e))
            (fun e => P7 (ix2 (0 : Fin 1) e)) (fun d => P0 (ix2 p d))) q := by
  rw [body_eq]
  refine (stepV_apply _ P8 P9 P10 P11 P12 P13 P14 p q).trans ?_
  exact congrArg (fun h => rowStep (fun n => P8 (ix3 (0 : Fin 1) p n)) (fun n c => P9 (ix3 (0 : Fin 1) n c)) (fun c d => P10 (ix3 (0 : Fin 1) c d))
          (fun d => P11 (ix2 (0 : Fin 1) d)) (fun d e => P12 (ix3 (0 : Fin 1) d e)) (fun d e => P13 (ix3 (0 : Fin 1) d e))
          (fun e => P14 (ix2 (0 : Fin 1) e)) h q) (funext fun d => stepV_apply P0 P1 P2 P3 P4 P5 P6 P7 p d)

end Cert.KernelIdeal.RowValue

end
-- ==== Proof.KernelArray.lean ====
/-
  From the kernel's blocks to its whole result array.

  Grid point `t` (of four) computes rows `512 t … 512 t + 511` of the result. Its input windows hand the body the
  matching 512 rows of the initial state and of both adjacency matrices, and the whole of every shared array, so what
  the point writes back is the restriction of `resultArr` to its rows; the four row blocks tile the array, hence the
  array after the run is `resultArr` of the argument arrays everywhere.

  A load through a one-slab rectangle of a two-slab staging buffer reads the buffer at that slab; the two 256-row
  halves of the update weights are rows `d` and `256 + d` of the slab.
-/
import proofs.«178996_g40089224740916_retrytranche2_1659_12_alg».proof.Proof.Gen.KernelIdeal.Value
import proofs.«178996_g40089224740916_retrytranche2_1659_12_alg».proof.Proof.KernelRow

set_option maxRecDepth 16384

noncomputable section

namespace Cert.KernelIdeal.ArrValue

open Cert.KernelIdeal Cert.KernelIdeal.Gen Cert.KernelIdeal.Value Cert.KernelIdeal.RowValue
open Idealize.ShloMosaic Idealize.ShloMosaic.TcCoe Idealize.SL.Sem Idealize.ShloMosaic.ValueIdx Cert.Dhgn
open Idealize.ShloMosaic.Pipeline (Dat)

/-! ## The body's loads -/

theorem ld_state (X : Vec Ideal S512x256 .f32) (p : Fin 512) (d : Fin 256) :
    View.ld X r0_0 (ix2 p d) = X (ix2 p d) := by
  show X (r0_0.emb (ix2 p d)) = _
  refine congrArg X (funext fun a => Fin.ext ?_)
  match a with
  | ⟨0, _⟩ => show 0 + 1 * p.val = p.val; omega
  | ⟨1, _⟩ => show 0 + 1 * d.val = d.val; omega

theorem ld_adj0 (X : Vec Ideal S2x512x2048 .f32) (u : Fin 1) (i : Fin 512) (j : Fin 2048) :
    View.ld X r0_1 (ix3 u i j) = X (ix3 (0 : Fin 2) i j) := by
  show X (r0_1.emb (ix3 u i j)) = _
  refine congrArg X (funext fun a => Fin.ext ?_)
  match a with
  | ⟨0, _⟩ => show 0 + 1 * u.val = 0; omega
  | ⟨1, _⟩ => show 0 + 1 * i.val = i.val; omega
  | ⟨2, _⟩ => show 0 + 1 * j.val = j.val; omega

theorem ld_msg0 (X : Vec Ideal S2x2048x512 .f32) (u : Fin 1) (i : Fin 2048) (j : Fin 512) :
    View.ld X r0_2 (ix3 u i j) = X (ix3 (0 : Fin 2) i j) := by
  show X (r0_2.emb (ix3 u i j)) = _
  refine congrArg X (funext fun a => Fin.ext ?_)
  match a with
  | ⟨0, _⟩ => show 0 + 1 * u.val = 0; omega
  | ⟨1, _⟩ => show 0 + 1 * i.val = i.val; omega
  | ⟨2, _⟩ => show 0 + 1 * j.val = j.val; omega

theorem ld_wagg0 (X : Vec Ideal S2x512x256 .f32) (u : Fin 1) (i : Fin 512) (j : Fin 256) :
    View.ld X r0_3 (ix3 u i j) = X (ix3 (0 : Fin 2) i j) := by
  show X (r0_3.emb (ix3 u i j)) = _
  refine congrArg X (funext fun a => Fin.ext ?_)
  match a with
  | ⟨0, _⟩ => show 0 + 1 * u.val = 0; omega
  | ⟨1, _⟩ => show 0 + 1 * i.val = i.val; omega
  | ⟨2, _⟩ => show 0 + 1 * j.val = j.val; omega

theorem ld_bias0 (X : Vec Ideal S2x256 .f32) (u : Fin 1) (j : Fin 256) :
    View.ld X r0_4 (ix2 u j) = X (ix2 (0 : Fin 2) j) := by
  show X (r0_4.emb (ix2 u j)) = _
  refine congrArg X (funext fun a => Fin.ext ?_)
  match a with
  | ⟨0, _⟩ => show 0 + 1 * u.val = 0; omega
  | ⟨1, _⟩ => show 0 + 1 * j.val = j.val; omega

theorem ld_wtop0 (X : Vec Ideal S2x512x256 .f32) (u : Fin 1) (i : Fin 256) (j : Fin 256) :
    View.ld X r0_5 (ix3 u i j) = X (ix3 (0 : Fin 2) (lo i) j) := by
  show X (r0_5.emb (ix3 u i j)) = _
  refine congrArg X (funext fun a => Fin.ext ?_)
  match a with
  | ⟨0, _⟩ => show 0 + 1 * u.val = 0; omega
  | ⟨1, _⟩ => show 0 + 1 * i.val = i.val; omega
  | ⟨2, _⟩ => show 0 + 1 * j.val = j.val; omega

theorem ld_wbot0 (X : Vec Ideal S2x512x256 .f32) (u : Fin 1) (i : Fin 256) (j : Fin 256) :
    View.ld X r0_6 (ix3 u i j) = X (ix3 (0 : Fin 2) (hi i) j) := by
  show X (r0_6.emb (ix3 u i j)) = _
  refine congrArg X (funext fun a => Fin.ext ?_)
  match a with
  | ⟨0, _⟩ => show 0 + 1 * u.val = 0; omega
  | ⟨1, _⟩ => show 256 + 1 * i.val = 256 + i.val; omega
  | ⟨2, _⟩ => show 0 + 1 * j.val = j.val; omega

theorem ld_adj1 (X : Vec Ideal S2x512x2048 .f32) (u : Fin 1) (i : Fin 512) (j : Fin 2048) :
    View.ld X r0_7 (ix3 u i j) = X (ix3 (1 : Fin 2) i j) := by
  show X (r0_7.emb (ix3 u i j)) = _
  refine congrArg X (funext fun a => Fin.ext ?_)
  match a with
  | ⟨0, _⟩ => show 1 + 1 * u.val = 1; omega
  | ⟨1, _⟩ => show 0 + 1 * i.val = i.val; omega
  | ⟨2, _⟩ => show 0 + 1 * j.val = j.val; omega

theorem ld_msg1 (X : Vec Ideal S2x2048x512 .f32) (u : Fin 1) (i : Fin 2048) (j : Fin 512) :
    View.ld X r0_8 (ix3 u i j) = X (ix3 (1 : Fin 2) i j) := by
  show X (r0_8.emb (ix3 u i j)) = _
  refine congrArg X (funext fun a => Fin.ext ?_)
  match a with
  | ⟨0, _⟩ => show 1 + 1 * u.val = 1; omega
  | ⟨1, _⟩ => show 0 + 1 * i.val = i.val; omega
  | ⟨2, _⟩ => show 0 + 1 * j.val = j.val; omega

theorem ld_wagg1 (X : Vec Ideal S2x512x256 .f32) (u : Fin 1) (i : Fin 512) (j : Fin 256) :
    View.ld X r0_9 (ix3 u i j) = X (ix3 (1 : Fin 2) i j) := by
  show X (r0_9.emb (ix3 u i j)) = _
  refine congrArg X (funext fun a => Fin.ext ?_)
  match a with
  | ⟨0, _⟩ => show 1 + 1 * u.val = 1; omega
  | ⟨1, _⟩ => show 0 + 1 * i.val = i.val; omega
  | ⟨2, _⟩ => show 0 + 1 * j.val = j.val; omega

theorem ld_bias1 (X : Vec Ideal S2x256 .f32) (u : Fin 1) (j : Fin 256) :
    View.ld X r0_10 (ix2 u j) = X (ix2 (1 : Fin 2) j) := by
  show X (r0_10.emb (ix2 u j)) = _
  refine congrArg X (funext fun a => Fin.ext ?_)
  match a with
  | ⟨0, _⟩ => show 1 + 1 * u.val = 1; omega
  | ⟨1, _⟩ => show 0 + 1 * j.val = j.val; omega

theorem ld_wtop1 (X : Vec Ideal S2x512x256 .f32) (u : Fin 1) (i : Fin 256) (j : Fin 256) :
    View.ld X r0_11 (ix3 u i j) = X (ix3 (1 : Fin 2) (lo i) j) := by
  show X (r0_11.emb (ix3 u i j)) = _
  refine congrArg X (funext fun a => Fin.ext ?_)
  match a with
  | ⟨0, _⟩ => show 1 + 1 * u.val = 1; omega
  | ⟨1, _⟩ => show 0 + 1 * i.val = i.val; omega
  | ⟨2, _⟩ => show 0 + 1 * j.val = j.val; omega

theorem ld_wbot1 (X : Vec Ideal S2x512x256 .f32) (u : Fin 1) (i : Fin 256) (j : Fin 256) :
    View.ld X r0_12 (ix3 u i j) = X (ix3 (1 : Fin 2) (hi i) j) := by
  show X (r0_12.emb (ix3 u i j)) = _
  refine congrArg X (funext fun a => Fin.ext ?_)
  match a with
  | ⟨0, _⟩ => show 1 + 1 * u.val = 1; omega
  | ⟨1, _⟩ => show 256 + 1 * i.val = 256 + i.val; omega
  | ⟨2, _⟩ => show 0 + 1 * j.val = j.val; omega

/-! ## One block -/

theorem zero_offsets : (![0, 0] : Fin 2 → Nat) = fun _ => 0 := funext fun a => by fin_cases a <;> rfl

/-- Entry (p, q) of what the body leaves in the output block, from the seven input blocks: both depth steps of block
    row `p`. -/
theorem block_value (B0 : Vec Ideal S512x256 .f32) (B1 : Vec Ideal S2x2048x512 .f32) (B2 : Vec Ideal S2x512x2048 .f32)
    (B3 : Vec Ideal S2x512x256 .f32) (B4 : Vec Ideal S2x256 .f32) (B5 : Vec Ideal S2x512x256 .f32) (B6 : Vec Ideal S2x256 .f32)
    (p : Fin 512) (q : Fin 256) :
    out0_7 B0 B1 B2 B3 B4 B5 B6 (ix2 p q)
      = rowStep (fun n => B2 (ix3 (1 : Fin 2) p n)) (fun n c => B1 (ix3 (1 : Fin 2) n c)) (fun c d => B3 (ix3 (1 : Fin 2) c d))
          (fun d => B4 (ix2 (1 : Fin 2) d)) (fun d e => B5 (ix3 (1 : Fin 2) (lo d) e)) (fun d e => B5 (ix3 (1 : Fin 2) (hi d) e))
          (fun e => B6 (ix2 (1 : Fin 2) e))
          (rowStep (fun n => B2 (ix3 (0 : Fin 2) p n)) (fun n c => B1 (ix3 (0 : Fin 2) n c)) (fun c d => B3 (ix3 (0 : Fin 2) c d))
          (fun d => B4 (ix2 (0 : Fin 2) d)) (fun d e => B5 (ix3 (0 : Fin 2) (lo d) e)) (fun d e => B5 (ix3 (0 : Fin 2) (hi d) e))
          (fun e => B6 (ix2 (0 : Fin 2) e)) (fun d => B0 (ix2 p d))) q := by
  unfold out0_7
  rw [View.canon_unit_zero zero_offsets]
  refine (body_apply _ _ _ _ _ _ _ _ _ _ _ _ _ _ _ p q).trans ?_
  exact rowStep_congr
      (funext fun n => ld_adj1 B2 0 p n)
      (funext fun n => funext fun c => ld_msg1 B1 0 n c)
      (funext fun c => funext fun d => ld_wagg1 B3 0 c d)
      (funext fun d => ld_bias1 B4 0 d)
      (funext fun d => funext fun e => ld_wtop1 B5 0 d e)
      (funext fun d => funext fun e => ld_wbot1 B5 0 d e)
      (funext fun e => ld_bias1 B6 0 e)
      (funext fun d => rowStep_congr
      (funext fun n => ld_adj0 B2 0 p n)
      (funext fun n => funext fun c => ld_msg0 B1 0 n c)
      (funext fun c => funext fun d => ld_wagg0 B3 0 c d)
      (funext fun d => ld_bias0 B4 0 d)
      (funext fun d => funext fun e => ld_wtop0 B5 0 d e)
      (funext fun d => funext fun e => ld_wbot0 B5 0 d e)
      (funext fun e => ld_bias0 B6 0 e)
      (funext fun d' => ld_state B0 p d') d) q

/-! ## The blocks the windows hand the body -/

variable (m : (ℓ : Loc nD τ sig) → Buf (Elt Ideal) ℓ) (ρ : Dev nD → PrngReg)

/-- How the eight windows move over the four grid points: the state, adjacency and output windows step 512 rows per
    point; every other window stays at block zero. -/
theorem idx_facts : ∀ t : Fin cfg0.N,
    win0_0.index t (0 : Fin 2) = win0_7.index t (0 : Fin 2) ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = win0_7.index t (0 : Fin 2) ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (1 : Fin 2) = 0 ∧ win0_7.index t (0 : Fin 2) ≤ 3 :=
  (by decide +kernel : ∀ t : Fin grid0.N, _)

/-- Every one of the four row blocks is some point's. -/
theorem idx_onto : ∀ q0 : Fin 4, ∃ t : Fin cfg0.N, win0_7.index t = ![q0.val, 0] :=
  (by decide +kernel : ∀ q0 : Fin 4, ∃ t : Fin grid0.N, win0_7.index t = ![q0.val, 0])

/-- The state window's block: 512 rows of the initial state, from row `512 · (block index)`. -/
theorem read_state (c : Dev nD) (t : Fin cfg0.N) (p : Fin 512) (d : Fin 256) (P : Fin 2048) (i0 : Nat)
    (hP : P.val = i0 * 512 + p.val) (h0 : win0_0.index t (0 : Fin 2) = i0) (h1 : win0_0.index t (1 : Fin 2) = 0) :
    iblk m c 0 t (ix2 p d) = V m c main_arg0 (ix2 P d) := by
  show V m c main_arg0 (((cfg0.win 0).blk t).view.emb (ix2 p d)) = _
  refine congrArg (V m c main_arg0) (funext fun a => Fin.ext ?_)
  match a with
  | ⟨0, _⟩ => show win0_0.index t (0 : Fin 2) * 512 + 1 * p.val = P.val; omega
  | ⟨1, _⟩ => show win0_0.index t (1 : Fin 2) * 256 + 1 * d.val = d.val; omega

/-- The message window's block is the whole message array. -/
theorem read_msg (c : Dev nD) (t : Fin cfg0.N) (s : Fin 2) (n : Fin 2048) (c' : Fin 512)
    (h0 : win0_1.index t (0 : Fin 3) = 0) (h1 : win0_1.index t (1 : Fin 3) = 0) (h2 : win0_1.index t (2 : Fin 3) = 0) :
    iblk m c 1 t (ix3 s n c') = V m c main_arg1 (ix3 s n c') := by
  show V m c main_arg1 (((cfg0.win 1).blk t).view.emb (ix3 s n c')) = _
  refine congrArg (V m c main_arg1) (funext fun a => Fin.ext ?_)
  match a with
  | ⟨0, _⟩ => show win0_1.index t (0 : Fin 3) * 2 + 1 * s.val = s.val; omega
  | ⟨1, _⟩ => show win0_1.index t (1 : Fin 3) * 2048 + 1 * n.val = n.val; omega
  | ⟨2, _⟩ => show win0_1.index t (2 : Fin 3) * 512 + 1 * c'.val = c'.val; omega

/-- The adjacency window's block: 512 rows of both adjacency matrices, from row `512 · (block index)`. -/
theorem read_adj (c : Dev nD) (t : Fin cfg0.N) (s : Fin 2) (p : Fin 512) (n : Fin 2048) (P : Fin 2048) (i1 : Nat)
    (hP : P.val = i1 * 512 + p.val) (h0 : win0_2.index t (0 : Fin 3) = 0) (h1 : win0_2.index t (1 : Fin 3) = i1)
    (h2 : win0_2.index t (2 : Fin 3) = 0) :
    iblk m c 2 t (ix3 s p n) = V m c main_arg2 (ix3 s P n) := by
  show V m c main_arg2 (((cfg0.win 2).blk t).view.emb (ix3 s p n)) = _
  refine congrArg (V m c main_arg2) (funext fun a => Fin.ext ?_)
  match a with
  | ⟨0, _⟩ => show win0_2.index t (0 : Fin 3) * 2 + 1 * s.val = s.val; omega
  | ⟨1, _⟩ => show win0_2.index t (1 : Fin 3) * 512 + 1 * p.val = P.val; omega
  | ⟨2, _⟩ => show win0_2.index t (2 : Fin 3) * 2048 + 1 * n.val = n.val; omega

/-- The aggregation-weight window's block is the whole array. -/
theorem read_wagg (c : Dev nD) (t : Fin cfg0.N) (s : Fin 2) (k : Fin 512) (d : Fin 256)
    (h0 : win0_3.index t (0 : Fin 3) = 0) (h1 : win0_3.index t (1 : Fin 3) = 0) (h2 : win0_3.index t (2 : Fin 3) = 0) :
    iblk m c 3 t (ix3 s k d) = V m c main_arg3 (ix3 s k d) := by
  show V m c main_arg3 (((cfg0.win 3).blk t).view.emb (ix3 s k d)) = _
  refine congrArg (V m c main_arg3) (funext fun a => Fin.ext ?_)
  match a with
  | ⟨0, _⟩ => show win0_3.index t (0 : Fin 3) * 2 + 1 * s.val = s.val; omega
  | ⟨1, _⟩ => show win0_3.index t (1 : Fin 3) * 512 + 1 * k.val = k.val; omega
  | ⟨2, _⟩ => show win0_3.index t (2 : Fin 3) * 256 + 1 * d.val = d.val; omega

/-- The aggregation-bias window's block is the whole array. -/
theorem read_bagg (c : Dev nD) (t : Fin cfg0.N) (s : Fin 2) (d : Fin 256)
    (h0 : win0_4.index t (0 : Fin 2) = 0) (h1 : win0_4.index t (1 : Fin 2) = 0) :
    iblk m c 4 t (ix2 s d) = V m c main_arg4 (ix2 s d) := by
  show V m c main_arg4 (((cfg0.win 4).blk t).view.emb (ix2 s d)) = _
  refine congrArg (V m c main_arg4) (funext fun a => Fin.ext ?_)
  match a with
  | ⟨0, _⟩ => show win0_4.index t (0 : Fin 2) * 2 + 1 * s.val = s.val; omega
  | ⟨1, _⟩ => show win0_4.index t (1 : Fin 2) * 256 + 1 * d.val = d.val; omega

/-- The update-weight window's block is the whole array. -/
theorem read_wupd (c : Dev nD) (t : Fin cfg0.N) (s : Fin 2) (k : Fin 512) (d : Fin 256)
    (h0 : win0_5.index t (0 : Fin 3) = 0) (h1 : win0_5.index t (1 : Fin 3) = 0) (h2 : win0_5.index t (2 : Fin 3) = 0) :
    iblk m c 5 t (ix3 s k d) = V m c main_arg5 (ix3 s k d) := by
  show V m c main_arg5 (((cfg0.win 5).blk t).view.emb (ix3 s k d)) = _
  refine congrArg (V m c main_arg5) (funext fun a => Fin.ext ?_)
  match a with
  | ⟨0, _⟩ => show win0_5.index t (0 : Fin 3) * 2 + 1 * s.val = s.val; omega
  | ⟨1, _⟩ => show win0_5.index t (1 : Fin 3) * 512 + 1 * k.val = k.val; omega
  | ⟨2, _⟩ => show win0_5.index t (2 : Fin 3) * 256 + 1 * d.val = d.val; omega

/-- The update-bias window's block is the whole array. -/
theorem read_bupd (c : Dev nD) (t : Fin cfg0.N) (s : Fin 2) (d : Fin 256)
    (h0 : win0_6.index t (0 : Fin 2) = 0) (h1 : win0_6.index t (1 : Fin 2) = 0) :
    iblk m c 6 t (ix2 s d) = V m c main_arg6 (ix2 s d) := by
  show V m c main_arg6 (((cfg0.win 6).blk t).view.emb (ix2 s d)) = _
  refine congrArg (V m c main_arg6) (funext fun a => Fin.ext ?_)
  match a with
  | ⟨0, _⟩ => show win0_6.index t (0 : Fin 2) * 2 + 1 * s.val = s.val; omega
  | ⟨1, _⟩ => show win0_6.index t (1 : Fin 2) * 256 + 1 * d.val = d.val; omega

/-! ## What a point writes back, the cover, the array -/

/-- What point `t` writes back is its block of `resultArr` of the arrays as the region finds them. -/
theorem flushed_eq (c : Dev nD) (t : Fin cfg0.N) :
    (dats m 0 c).flushed 7 t = ((cfg0.win 7).blk t).view.read (Elt Ideal) (resultArr (V m c main_arg0) (V m c main_arg1) (V m c main_arg2) (V m c main_arg3) (V m c main_arg4) (V m c main_arg5) (V m c main_arg6)) := by
  rw [flushed7]
  obtain ⟨f00, f01, f10, f11, f12, f20, f21, f22, f30, f31, f32, f40, f41, f50, f51, f52, f60, f61, f71, f7le⟩ := idx_facts t
  funext j
  obtain ⟨p, q, rfl⟩ : ∃ (p : Fin 512) (q : Fin 256), j = ix2 p q := ⟨j 0, j 1, eq_ix2 (n0 := 512) (n1 := 256) j⟩
  have hP : win0_7.index t (0 : Fin 2) * 512 + p.val < 2048 := by have := p.isLt; omega
  have hemb : ((cfg0.win 7).blk t).view.emb (ix2 p q) = ix2 (⟨win0_7.index t (0 : Fin 2) * 512 + p.val, hP⟩ : Fin 2048) q := by
    funext a; apply Fin.ext
    match a with
    | ⟨0, _⟩ => show win0_7.index t (0 : Fin 2) * 512 + 1 * p.val = win0_7.index t (0 : Fin 2) * 512 + p.val; omega
    | ⟨1, _⟩ => show win0_7.index t (1 : Fin 2) * 256 + 1 * q.val = q.val; omega
  show out0_7 (iblk m c 0 t) (iblk m c 1 t) (iblk m c 2 t) (iblk m c 3 t) (iblk m c 4 t) (iblk m c 5 t) (iblk m c 6 t) (ix2 p q)
    = resultArr (V m c main_arg0) (V m c main_arg1) (V m c main_arg2) (V m c main_arg3) (V m c main_arg4) (V m c main_arg5) (V m c main_arg6) (((cfg0.win 7).blk t).view.emb (ix2 p q))
  rw [hemb]
  refine ((block_value (iblk m c 0 t) (iblk m c 1 t) (iblk m c 2 t) (iblk m c 3 t) (iblk m c 4 t) (iblk m c 5 t) (iblk m c 6 t) p q).trans ?_).trans
    (result_unfold (V m c main_arg0) (V m c main_arg1) (V m c main_arg2) (V m c main_arg3) (V m c main_arg4) (V m c main_arg5) (V m c main_arg6) ⟨_, hP⟩ q).symm
  exact rowStep_congr
      (funext fun n => read_adj m c t (1 : Fin 2) p n ⟨_, hP⟩ (win0_7.index t (0 : Fin 2)) rfl f20 f21 f22)
      (funext fun n => funext fun c' => read_msg m c t (1 : Fin 2) n c' f10 f11 f12)
      (funext fun c' => funext fun d => read_wagg m c t (1 : Fin 2) c' d f30 f31 f32)
      (funext fun d => read_bagg m c t (1 : Fin 2) d f40 f41)
      (funext fun d => funext fun e => read_wupd m c t (1 : Fin 2) (lo d) e f50 f51 f52)
      (funext fun d => funext fun e => read_wupd m c t (1 : Fin 2) (hi d) e f50 f51 f52)
      (funext fun e => read_bupd m c t (1 : Fin 2) e f60 f61)
      (funext fun d => rowStep_congr
      (funext fun n => read_adj m c t (0 : Fin 2) p n ⟨_, hP⟩ (win0_7.index t (0 : Fin 2)) rfl f20 f21 f22)
      (funext fun n => funext fun c' => read_msg m c t (0 : Fin 2) n c' f10 f11 f12)
      (funext fun c' => funext fun d => read_wagg m c t (0 : Fin 2) c' d f30 f31 f32)
      (funext fun d => read_bagg m c t (0 : Fin 2) d f40 f41)
      (funext fun d => funext fun e => read_wupd m c t (0 : Fin 2) (lo d) e f50 f51 f52)
      (funext fun d => funext fun e => read_wupd m c t (0 : Fin 2) (hi d) e f50 f51 f52)
      (funext fun e => read_bupd m c t (0 : Fin 2) e f60 f61)
      (funext fun d' => read_state m c t p d' ⟨_, hP⟩ (win0_7.index t (0 : Fin 2)) rfl f00 f01) d) q

/-- An index of the array is in point `t`'s block iff each coordinate is in the block's range on its axis. -/
theorem mem_blk (t : Fin cfg0.N) (i : S2048x256.Idx) :
    i ∈ ((cfg0.win 7).blk t).view.set ↔ ∀ a : Fin 2, win0_7.index t a * S512x256.size a ≤ (i a).val
      ∧ (i a).val < win0_7.index t a * S512x256.size a + S512x256.size a := by
  show i ∈ ((View.whole main_v0).slice (win0_7.rect t)).set ↔ _
  rw [View.set_slice_whole, Rect.mem_set_unit]
  exact Iff.rfl

/-- Every entry of the result lies in the block of the point that owns its row: row `r` belongs to block `r / 512`. -/
theorem cover (i : S2048x256.Idx) :
    ∃ t : Fin cfg0.N, (cfg0.win 7).flush t = true ∧ i ∈ ((cfg0.win 7).blk t).view.set := by
  have hi0 : (i 0).val < 2048 := (i 0).isLt
  have hi1 : (i 1).val < 256 := (i 1).isLt
  obtain ⟨t, ht⟩ := idx_onto ⟨(i 0).val / 512, by omega⟩
  have q0 : win0_7.index t (0 : Fin 2) = (i 0).val / 512 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 256 ≤ (i 1).val ∧ (i 1).val < win0_7.index t (1 : Fin 2) * 256 + 256; omega

/-- The result array after the run is `resultArr` of the argument arrays as launched. -/
theorem final (c : Dev nD) :
    (dats m 0 c).arrAt 7 cfg0.N = resultArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (resultArr (V m c main_arg0) (V m c main_arg1) (V m c main_arg2) (V m c main_arg3) (V m c main_arg4) (V m c main_arg5) (V m c main_arg6)) (fun t _ => flushed_eq m c t) cover

/-- The kernel's run with its result array named as `resultArr` of the arguments, the arguments unchanged. -/
theorem run : θ_run defs (onTc (τ := τ) (main (F := Ideal))) ⟨m, fun _ => 0, ρ⟩ fun r => ∀ c : Dev nD,
      r.2.mem ((c : Thread nD τ).loc main_v0) = resultArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.ArrValue

end
-- ==== Proof.RefRow.lean ====
/-
  One depth step of the reference, read at one entry of its 2048 × 256 result.

  A step of the reference takes six one-step slabs (the adjacency matrix, the messages, the aggregation weights and
  bias, the update weights and bias, each still carrying its leading unit axis) and the incoming state, and is, at
  entry (r, e), `rowStep` of row `r`: the host's row sum from a zero start is the plain sum, its matrix products are
  sums over the contracted coordinate, and the product of the concatenation `[embedding, state]` with the whole update
  matrix is the sum of the products with the upper and the lower half (`sum_halves`), because coordinate `d` of the
  first half of the concatenation is the embedding's `d` and coordinate `256 + d` is the state's `d`.
-/
import proofs.«178996_g40089224740916_retrytranche2_1659_12_alg».proof.Proof.Gen.ReferenceIdeal
import proofs.«178996_g40089224740916_retrytranche2_1659_12_alg».proof.Proof.Spec
import proofs.«178996_g40089224740916_retrytranche2_1659_12_alg».proof.Proof.LibPlainDot
import Idealize.ShloMosaic.Lib.ValueLayout
import Idealize.ShloMosaic.Lib.Pipeline.Value
import Idealize.ShloMosaic.PureOps.Ideal.Laws

noncomputable section

namespace Cert.ReferenceIdeal.RowValue

open Cert.ReferenceIdeal Cert.ReferenceIdeal.Gen Idealize.ShloMosaic Idealize.ShloMosaic.ValueIdx Cert.Dhgn

/-- The host's sum along the second axis of a 2048 × 2048 matrix from a zero start, at row `r`. -/
theorem hostRowsum_apply (X : FVec Ideal S2048x2048 .f32) (r : Fin 2048) :
    Host.reduceAdd X (constant (F := Ideal) S_ .f32 0x00000000#32) reducesTo_S2048x2048_S2048_d1 h_S_ (ix1 r)
      = ∑ n : Fin 2048, X (ix2 r n) := by
  simp only [Host.reduceAdd, Ideal.hostReduceAdd_def]
  rw [Ideal.hostReduceAdd_single reducesTo_S2048x2048_S2048_d1 (by decide)]
  show Ideal.ofBits .f32 0x00000000#32 + _ = _
  rw [Ideal.ofBits_zero_f32, zero_add]
  exact Finset.sum_congr rfl fun n _ => congrArg X (funext fun a => Fin.ext (by
    match a with
    | ⟨0, _⟩ => rfl
    | ⟨1, _⟩ => rfl))

/-- The clipped degrees of all rows, kept as a column. -/
def refDeg (sAdj : FVec Ideal S1x2048x2048 .f32) : FVec Ideal S2048x1 .f32 :=
  maximumf (broadcastInDim S2048x1 ![] bcast_S_S2048x1 (constant (F := Ideal) S_ .f32 0x358637BD#32))
    (broadcastInDim S2048x1 ![0] bcast_S2048_S2048x1_0
      (Host.reduceAdd (shapeCast S2048x2048 sAdj shapeCasts_S1x2048x2048_S2048x2048) (constant (F := Ideal) S_ .f32 0x00000000#32)
        reducesTo_S2048x2048_S2048_d1 h_S_))

theorem refDeg_apply (sAdj : FVec Ideal S1x2048x2048 .f32) (r : Fin 2048) (u : Fin 1) :
    refDeg sAdj (ix2 r u) = rowDeg (fun n => sAdj (ix3 (0 : Fin 1) r n)) := by
  have e0 : (broadcastInDim S2048x1 ![] bcast_S_S2048x1 (constant (F := Ideal) S_ .f32 0x358637BD#32)) (ix2 r u) = eps :=
    broadcastInDim_apply _ bcast_S_S2048x1 _ (ix2 r u) ix0 (fun a => a.elim0)
  have e1 : (broadcastInDim S2048x1 ![0] bcast_S2048_S2048x1_0
      (Host.reduceAdd (shapeCast S2048x2048 sAdj shapeCasts_S1x2048x2048_S2048x2048) (constant (F := Ideal) S_ .f32 0x00000000#32)
        reducesTo_S2048x2048_S2048_d1 h_S_)) (ix2 r u) = ∑ n : Fin 2048, sAdj (ix3 (0 : Fin 1) r n) := by
    refine (broadcastInDim_apply _ bcast_S2048_S2048x1_0 _ (ix2 r u) (ix1 r) (fun a => match a with
      | ⟨0, _⟩ => by show r.val = if (2048 : Nat) = 1 then 0 else r.val; rw [if_neg (by decide)])).trans ?_
    refine (hostRowsum_apply _ r).trans ?_
    exact Finset.sum_congr rfl fun n _ => shapeCast_1ab_ab_apply sAdj shapeCasts_S1x2048x2048_S2048x2048 r n
  exact congrArg₂ max e0 e1

/-- The mean messages of all rows. -/
def refAgg (sAdj : FVec Ideal S1x2048x2048 .f32) (sA : FVec Ideal S1x2048x512 .f32) : FVec Ideal S2048x512 .f32 :=
  Host.divf (Host.dotGeneral dot_S2048x2048_S2048x512_S2048x512_1_0_0_1_n_n none
      (shapeCast S2048x2048 sAdj shapeCasts_S1x2048x2048_S2048x2048) (shapeCast S2048x512 sA shapeCasts_S1x2048x512_S2048x512))
    (broadcastInDim S2048x512 ![0, 1] bcast_S2048x1_S2048x512_0_1 (refDeg sAdj))

theorem refAgg_apply (sAdj : FVec Ideal S1x2048x2048 .f32) (sA : FVec Ideal S1x2048x512 .f32) (r : Fin 2048) (c : Fin 512) :
    refAgg sAdj sA (ix2 r c) = rowAgg (fun n => sAdj (ix3 (0 : Fin 1) r n)) (fun n c => sA (ix3 (0 : Fin 1) n c)) c := by
  have e1 : (Host.dotGeneral (F := Ideal) dot_S2048x2048_S2048x512_S2048x512_1_0_0_1_n_n none
      (shapeCast S2048x2048 sAdj shapeCasts_S1x2048x2048_S2048x2048) (shapeCast S2048x512 sA shapeCasts_S1x2048x512_S2048x512)) (ix2 r c)
      = ∑ n : Fin 2048, sAdj (ix3 (0 : Fin 1) r n) * sA (ix3 (0 : Fin 1) n c) := by
    refine (dotGeneral_plain_apply dot_S2048x2048_S2048x512_S2048x512_1_0_0_1_n_n rfl none _ _ r c).trans ?_
    exact Finset.sum_congr rfl fun n _ => congrArg₂ (· * ·)
      (shapeCast_1ab_ab_apply sAdj shapeCasts_S1x2048x2048_S2048x2048 r n)
      (shapeCast_1ab_ab_apply sA shapeCasts_S1x2048x512_S2048x512 n c)
  have e2 : (broadcastInDim S2048x512 ![0, 1] bcast_S2048x1_S2048x512_0_1 (refDeg sAdj)) (ix2 r c)
      = rowDeg (fun n => sAdj (ix3 (0 : Fin 1) r n)) := by
    refine (broadcastInDim_apply _ bcast_S2048x1_S2048x512_0_1 _ (ix2 r c) (ix2 r (0 : Fin 1)) (fun a => match a with
      | ⟨0, _⟩ => by show r.val = if (2048 : Nat) = 1 then 0 else r.val; rw [if_neg (by decide)]
      | ⟨1, _⟩ => by show 0 = if (1 : Nat) = 1 then 0 else c.val; rw [if_pos rfl])).trans ?_
    exact refDeg_apply sAdj r 0
  exact congrArg₂ Ideal.div e1 e2

/-- A bias row `[1, 256]`, squeezed, re-expanded and repeated down the 2048 rows, reads its entry of the column. -/
theorem hostBias_apply (b : FVec Ideal S1x256 .f32) (r : Fin 2048) (d : Fin 256) :
    (broadcastInDim S2048x256 ![0, 1] bcast_S1x256_S2048x256_0_1
      (broadcastInDim S1x256 ![1] bcast_S256_S1x256_1 (shapeCast S256 b shapeCasts_S1x256_S256))) (ix2 r d) = b (ix2 (0 : Fin 1) d) := by
  refine (broadcastInDim_apply _ bcast_S1x256_S2048x256_0_1 _ (ix2 r d) (ix2 (0 : Fin 1) d) (fun a => match a with
    | ⟨0, _⟩ => by show 0 = if (1 : Nat) = 1 then 0 else r.val; rw [if_pos rfl]
    | ⟨1, _⟩ => by show d.val = if (256 : Nat) = 1 then 0 else d.val; rw [if_neg (by decide)])).trans ?_
  refine (broadcastInDim_apply _ bcast_S256_S1x256_1 _ (ix2 (0 : Fin 1) d) (ix1 d) (fun a => match a with
    | ⟨0, _⟩ => by show d.val = if (256 : Nat) = 1 then 0 else d.val; rw [if_neg (by decide)])).trans ?_
  exact shapeCast_1a_a_apply b shapeCasts_S1x256_S256 d

/-- The rectifier's zero, broadcast from a scalar, reads the zero word everywhere. -/
theorem hostZero_apply (i : S2048x256.Idx) :
    (broadcastInDim S2048x256 ![] bcast_S_S2048x256 (constant (F := Ideal) S_ .f32 0x00000000#32)) i = zero :=
  broadcastInDim_apply _ bcast_S_S2048x256 _ i ix0 (fun a => a.elim0)

/-- The embeddings of all rows. -/
def refEmb (sAdj : FVec Ideal S1x2048x2048 .f32) (sA : FVec Ideal S1x2048x512 .f32) (sWa : FVec Ideal S1x512x256 .f32)
    (sBa : FVec Ideal S1x256 .f32) : FVec Ideal S2048x256 .f32 :=
  maximumf (addf (Host.dotGeneral dot_S2048x512_S512x256_S2048x256_1_0_0_1_n_n none (refAgg sAdj sA)
      (shapeCast S512x256 sWa shapeCasts_S1x512x256_S512x256))
    (broadcastInDim S2048x256 ![0, 1] bcast_S1x256_S2048x256_0_1
      (broadcastInDim S1x256 ![1] bcast_S256_S1x256_1 (shapeCast S256 sBa shapeCasts_S1x256_S256))))
    (broadcastInDim S2048x256 ![] bcast_S_S2048x256 (constant (F := Ideal) S_ .f32 0x00000000#32))

theorem refEmb_apply (sAdj : FVec Ideal S1x2048x2048 .f32) (sA : FVec Ideal S1x2048x512 .f32) (sWa : FVec Ideal S1x512x256 .f32)
    (sBa : FVec Ideal S1x256 .f32) (r : Fin 2048) (d : Fin 256) :
    refEmb sAdj sA sWa sBa (ix2 r d) = rowEmb (fun n => sAdj (ix3 (0 : Fin 1) r n)) (fun n c => sA (ix3 (0 : Fin 1) n c))
      (fun c d => sWa (ix3 (0 : Fin 1) c d)) (fun d => sBa (ix2 (0 : Fin 1) d)) d := by
  have e1 : (Host.dotGeneral (F := Ideal) dot_S2048x512_S512x256_S2048x256_1_0_0_1_n_n none (refAgg sAdj sA)
      (shapeCast S512x256 sWa shapeCasts_S1x512x256_S512x256)) (ix2 r d)
      = ∑ c : Fin 512, rowAgg (fun n => sAdj (ix3 (0 : Fin 1) r n)) (fun n c => sA (ix3 (0 : Fin 1) n c)) c * sWa (ix3 (0 : Fin 1) c d) := by
    refine (dotGeneral_plain_apply dot_S2048x512_S512x256_S2048x256_1_0_0_1_n_n rfl none _ _ r d).trans ?_
    exact Finset.sum_congr rfl fun c _ => congrArg₂ (· * ·) (refAgg_apply sAdj sA r c)
      (shapeCast_1ab_ab_apply sWa shapeCasts_S1x512x256_S512x256 c d)
  exact congrArg₂ max (congrArg₂ (· + ·) e1 (hostBias_apply sBa r d)) (hostZero_apply (ix2 r d))

/-- One depth step of all rows: the concatenation of the embeddings and the incoming state, times the whole update
    matrix, plus the update bias, rectified. -/
def refStep (sAdj : FVec Ideal S1x2048x2048 .f32) (sA : FVec Ideal S1x2048x512 .f32) (sWa : FVec Ideal S1x512x256 .f32)
    (sBa : FVec Ideal S1x256 .f32) (sWf : FVec Ideal S1x512x256 .f32) (sBf : FVec Ideal S1x256 .f32)
    (h : FVec Ideal S2048x256 .f32) : FVec Ideal S2048x256 .f32 :=
  maximumf (addf (Host.dotGeneral dot_S2048x512_S512x256_S2048x256_1_0_0_1_n_n none
      (concatenate S2048x512 1 [⟨S2048x256, refEmb sAdj sA sWa sBa⟩, ⟨S2048x256, h⟩] concatenates_S2048x256_S2048x256_S2048x512_d1)
      (shapeCast S512x256 sWf shapeCasts_S1x512x256_S512x256))
    (broadcastInDim S2048x256 ![0, 1] bcast_S1x256_S2048x256_0_1
      (broadcastInDim S1x256 ![1] bcast_S256_S1x256_1 (shapeCast S256 sBf shapeCasts_S1x256_S256))))
    (broadcastInDim S2048x256 ![] bcast_S_S2048x256 (constant (F := Ideal) S_ .f32 0x00000000#32))

/-- The first 256 columns of the concatenation are the first piece. -/
theorem cat_lo (E h : FVec Ideal S2048x256 .f32) (r : Fin 2048) (d : Fin 256) :
    (concatenate S2048x512 1 [⟨S2048x256, E⟩, ⟨S2048x256, h⟩] concatenates_S2048x256_S2048x256_S2048x512_d1) (ix2 r (lo d))
      = E (ix2 r d) :=
  concatenate_pair_apply_left (1 : Fin S2048x512.rank) E h concatenates_S2048x256_S2048x256_S2048x512_d1 (ix2 r (lo d)) rfl (ix2 r d)
    (fun b => match b with
      | ⟨0, _⟩ => rfl
      | ⟨1, _⟩ => rfl)

/-- The last 256 columns of the concatenation are the second piece. -/
theorem cat_hi (E h : FVec Ideal S2048x256 .f32) (r : Fin 2048) (d : Fin 256) :
    (concatenate S2048x512 1 [⟨S2048x256, E⟩, ⟨S2048x256, h⟩] concatenates_S2048x256_S2048x256_S2048x512_d1) (ix2 r (hi d))
      = h (ix2 r d) :=
  concatenate_pair_apply_right (1 : Fin S2048x512.rank) E h concatenates_S2048x256_S2048x256_S2048x512_d1 (ix2 r (hi d)) rfl rfl (ix2 r d)
    (fun b => match b with
      | ⟨0, _⟩ => fun _ => rfl
      | ⟨1, _⟩ => fun hne => absurd rfl hne)
    (by show d.val + 256 = 256 + d.val; omega)

theorem refStep_apply (sAdj : FVec Ideal S1x2048x2048 .f32) (sA : FVec Ideal S1x2048x512 .f32) (sWa : FVec Ideal S1x512x256 .f32)
    (sBa : FVec Ideal S1x256 .f32) (sWf : FVec Ideal S1x512x256 .f32) (sBf : FVec Ideal S1x256 .f32)
    (h : FVec Ideal S2048x256 .f32) (r : Fin 2048) (e : Fin 256) :
    refStep sAdj sA sWa sBa sWf sBf h (ix2 r e)
      = rowStep (fun n => sAdj (ix3 (0 : Fin 1) r n)) (fun n c => sA (ix3 (0 : Fin 1) n c)) (fun c d => sWa (ix3 (0 : Fin 1) c d))
          (fun d => sBa (ix2 (0 : Fin 1) d)) (fun d e => sWf (ix3 (0 : Fin 1) (lo d) e)) (fun d e => sWf (ix3 (0 : Fin 1) (hi d) e))
          (fun e => sBf (ix2 (0 : Fin 1) e)) (fun d => h (ix2 r d)) e := by
  have e1 : (Host.dotGeneral (F := Ideal) dot_S2048x512_S512x256_S2048x256_1_0_0_1_n_n none
      (concatenate S2048x512 1 [⟨S2048x256, refEmb sAdj sA sWa sBa⟩, ⟨S2048x256, h⟩] concatenates_S2048x256_S2048x256_S2048x512_d1)
      (shapeCast S512x256 sWf shapeCasts_S1x512x256_S512x256)) (ix2 r e)
      = (∑ d : Fin 256, rowEmb (fun n => sAdj (ix3 (0 : Fin 1) r n)) (fun n c => sA (ix3 (0 : Fin 1) n c))
            (fun c d => sWa (ix3 (0 : Fin 1) c d)) (fun d => sBa (ix2 (0 : Fin 1) d)) d * sWf (ix3 (0 : Fin 1) (lo d) e))
        + ∑ d : Fin 256, h (ix2 r d) * sWf (ix3 (0 : Fin 1) (hi d) e) := by
    refine (dotGeneral_plain_apply dot_S2048x512_S512x256_S2048x256_1_0_0_1_n_n rfl none _ _ r e).trans ?_
    refine (sum_halves _).trans ?_
    refine congrArg₂ (· + ·) (Finset.sum_congr rfl fun d _ => ?_) (Finset.sum_congr rfl fun d _ => ?_)
    · exact congrArg₂ (· * ·) ((cat_lo _ h r d).trans (refEmb_apply sAdj sA sWa sBa r d))
        (shapeCast_1ab_ab_apply sWf shapeCasts_S1x512x256_S512x256 (lo d) e)
    · exact congrArg₂ (· * ·) (cat_hi _ h r d) (shapeCast_1ab_ab_apply sWf shapeCasts_S1x512x256_S512x256 (hi d) e)
  exact congrArg₂ max (congrArg₂ (· + ·) e1 (hostBias_apply sBf r e)) (hostZero_apply (ix2 r e))

end Cert.ReferenceIdeal.RowValue

end
-- ==== Proof.RefValue.lean ====
/-
  The reference's result is `resultArr` of its seven arguments.

  The reference cuts slab 0 of each per-step array, runs one depth step on the initial state, cuts slab 1 and runs a
  second step on the result. A slab cut at leading index `s` (a slice `[s : s+1]` that keeps the unit axis) reads the
  array at `s`. Each step at entry (r, e) is `rowStep` of row `r` (the one-step reading of the reference), so the
  composition is `resultArr` at (r, e).
-/
import proofs.«178996_g40089224740916_retrytranche2_1659_12_alg».proof.Proof.Gen.ReferenceIdeal.Read
import proofs.«178996_g40089224740916_retrytranche2_1659_12_alg».proof.Proof.RefRow

noncomputable section

namespace Cert.ReferenceIdeal.RefValue

open Cert.ReferenceIdeal Cert.ReferenceIdeal.Gen Cert.ReferenceIdeal.Read Cert.ReferenceIdeal.RowValue
open Idealize.ShloMosaic Idealize.ShloMosaic.ValueIdx Cert.Dhgn

/-! ## The slab cuts -/

theorem slab_adj0 (x2 : FVec Ideal S2x2048x2048 .f32) (u : Fin 1) (i : Fin 2048) (j : Fin 2048) :
    val_main_v0 (F := Ideal) x2 (ix3 u i j) = x2 (ix3 (0 : Fin 2) i j) := by
  refine (val_main_v0_apply (F := Ideal) x2 (ix3 u i j)).trans (congrArg x2 (funext fun a => Fin.ext ?_))
  match a with
  | ⟨0, _⟩ => show u.val = 0; omega
  | ⟨1, _⟩ => rfl
  | ⟨2, _⟩ => rfl

theorem slab_msg0 (x1 : FVec Ideal S2x2048x512 .f32) (u : Fin 1) (i : Fin 2048) (j : Fin 512) :
    val_main_v5 (F := Ideal) x1 (ix3 u i j) = x1 (ix3 (0 : Fin 2) i j) := by
  refine (val_main_v5_apply (F := Ideal) x1 (ix3 u i j)).trans (congrArg x1 (funext fun a => Fin.ext ?_))
  match a with
  | ⟨0, _⟩ => show u.val = 0; omega
  | ⟨1, _⟩ => rfl
  | ⟨2, _⟩ => rfl

theorem slab_wagg0 (x3 : FVec Ideal S2x512x256 .f32) (u : Fin 1) (i : Fin 512) (j : Fin 256) :
    val_main_v10 (F := Ideal) x3 (ix3 u i j) = x3 (ix3 (0 : Fin 2) i j) := by
  refine (val_main_v10_apply (F := Ideal) x3 (ix3 u i j)).trans (congrArg x3 (funext fun a => Fin.ext ?_))
  match a with
  | ⟨0, _⟩ => show u.val = 0; omega
  | ⟨1, _⟩ => rfl
  | ⟨2, _⟩ => rfl

theorem slab_bagg0 (x4 : FVec Ideal S2x256 .f32) (u : Fin 1) (j : Fin 256) :
    val_main_v13 (F := Ideal) x4 (ix2 u j) = x4 (ix2 (0 : Fin 2) j) := by
  refine (val_main_v13_apply (F := Ideal) x4 (ix2 u j)).trans (congrArg x4 (funext fun a => Fin.ext ?_))
  match a with
  | ⟨0, _⟩ => show u.val = 0; omega
  | ⟨1, _⟩ => rfl

theorem slab_wupd0 (x5 : FVec Ideal S2x512x256 .f32) (u : Fin 1) (i : Fin 512) (j : Fin 256) :
    val_main_v20 (F := Ideal) x5 (ix3 u i j) = x5 (ix3 (0 : Fin 2) i j) := by
  refine (val_main_v20_apply (F := Ideal) x5 (ix3 u i j)).trans (congrArg x5 (funext fun a => Fin.ext ?_))
  match a with
  | ⟨0, _⟩ => show u.val = 0; omega
  | ⟨1, _⟩ => rfl
  | ⟨2, _⟩ => rfl

theorem slab_bupd0 (x6 : FVec Ideal S2x256 .f32) (u : Fin 1) (j : Fin 256) :
    val_main_v23 (F := Ideal) x6 (ix2 u j) = x6 (ix2 (0 : Fin 2) j) := by
  refine (val_main_v23_apply (F := Ideal) x6 (ix2 u j)).trans (congrArg x6 (funext fun a => Fin.ext ?_))
  match a with
  | ⟨0, _⟩ => show u.val = 0; omega
  | ⟨1, _⟩ => rfl

theorem slab_adj1 (x2 : FVec Ideal S2x2048x2048 .f32) (u : Fin 1) (i : Fin 2048) (j : Fin 2048) :
    val_main_v29 (F := Ideal) x2 (ix3 u i j) = x2 (ix3 (1 : Fin 2) i j) := by
  refine (val_main_v29_apply (F := Ideal) x2 (ix3 u i j)).trans (congrArg x2 (funext fun a => Fin.ext ?_))
  match a with
  | ⟨0, _⟩ => show 1 + u.val = 1; omega
  | ⟨1, _⟩ => rfl
  | ⟨2, _⟩ => rfl

theorem slab_msg1 (x1 : FVec Ideal S2x2048x512 .f32) (u : Fin 1) (i : Fin 2048) (j : Fin 512) :
    val_main_v34 (F := Ideal) x1 (ix3 u i j) = x1 (ix3 (1 : Fin 2) i j) := by
  refine (val_main_v34_apply (F := Ideal) x1 (ix3 u i j)).trans (congrArg x1 (funext fun a => Fin.ext ?_))
  match a with
  | ⟨0, _⟩ => show 1 + u.val = 1; omega
  | ⟨1, _⟩ => rfl
  | ⟨2, _⟩ => rfl

theorem slab_wagg1 (x3 : FVec Ideal S2x512x256 .f32) (u : Fin 1) (i : Fin 512) (j : Fin 256) :
    val_main_v39 (F := Ideal) x3 (ix3 u i j) = x3 (ix3 (1 : Fin 2) i j) := by
  refine (val_main_v39_apply (F := Ideal) x3 (ix3 u i j)).trans (congrArg x3 (funext fun a => Fin.ext ?_))
  match a with
  | ⟨0, _⟩ => show 1 + u.val = 1; omega
  | ⟨1, _⟩ => rfl
  | ⟨2, _⟩ => rfl

theorem slab_bagg1 (x4 : FVec Ideal S2x256 .f32) (u : Fin 1) (j : Fin 256) :
    val_main_v42 (F := Ideal) x4 (ix2 u j) = x4 (ix2 (1 : Fin 2) j) := by
  refine (val_main_v42_apply (F := Ideal) x4 (ix2 u j)).trans (congrArg x4 (funext fun a => Fin.ext ?_))
  match a with
  | ⟨0, _⟩ => show 1 + u.val = 1; omega
  | ⟨1, _⟩ => rfl

theorem slab_wupd1 (x5 : FVec Ideal S2x512x256 .f32) (u : Fin 1) (i : Fin 512) (j : Fin 256) :
    val_main_v49 (F := Ideal) x5 (ix3 u i j) = x5 (ix3 (1 : Fin 2) i j) := by
  refine (val_main_v49_apply (F := Ideal) x5 (ix3 u i j)).trans (congrArg x5 (funext fun a => Fin.ext ?_))
  match a with
  | ⟨0, _⟩ => show 1 + u.val = 1; omega
  | ⟨1, _⟩ => rfl
  | ⟨2, _⟩ => rfl

theorem slab_bupd1 (x6 : FVec Ideal S2x256 .f32) (u : Fin 1) (j : Fin 256) :
    val_main_v52 (F := Ideal) x6 (ix2 u j) = x6 (ix2 (1 : Fin 2) j) := by
  refine (val_main_v52_apply (F := Ideal) x6 (ix2 u j)).trans (congrArg x6 (funext fun a => Fin.ext ?_))
  match a with
  | ⟨0, _⟩ => show 1 + u.val = 1; omega
  | ⟨1, _⟩ => rfl

/-! ## The two steps -/

/-- The first step's result is the one-step function of the six slab-0 cuts and the initial state. -/
theorem step0_eq (x0 : FVec Ideal S2048x256 .f32) (x1 : FVec Ideal S2x2048x512 .f32) (x2 : FVec Ideal S2x2048x2048 .f32)
    (x3 : FVec Ideal S2x512x256 .f32) (x4 : FVec Ideal S2x256 .f32) (x5 : FVec Ideal S2x512x256 .f32) (x6 : FVec Ideal S2x256 .f32) :
    val_main_v28 (F := Ideal) x0 x1 x2 x3 x4 x5 x6
      = refStep (val_main_v0 (F := Ideal) x2) (val_main_v5 (F := Ideal) x1) (val_main_v10 (F := Ideal) x3) (val_main_v13 (F := Ideal) x4)
          (val_main_v20 (F := Ideal) x5) (val_main_v23 (F := Ideal) x6) x0 := rfl

/-- The final result is the one-step function of the six slab-1 cuts and the first step's result. -/
theorem step1_eq (x0 : FVec Ideal S2048x256 .f32) (x1 : FVec Ideal S2x2048x512 .f32) (x2 : FVec Ideal S2x2048x2048 .f32)
    (x3 : FVec Ideal S2x512x256 .f32) (x4 : FVec Ideal S2x256 .f32) (x5 : FVec Ideal S2x512x256 .f32) (x6 : FVec Ideal S2x256 .f32) :
    val_main_v57 (F := Ideal) x0 x1 x2 x3 x4 x5 x6
      = refStep (val_main_v29 (F := Ideal) x2) (val_main_v34 (F := Ideal) x1) (val_main_v39 (F := Ideal) x3) (val_main_v42 (F := Ideal) x4)
          (val_main_v49 (F := Ideal) x5) (val_main_v52 (F := Ideal) x6)
          (val_main_v28 (F := Ideal) x0 x1 x2 x3 x4 x5 x6) := rfl

/-- Entry (r, d) of the first step's result. -/
theorem step0_apply (x0 : FVec Ideal S2048x256 .f32) (x1 : FVec Ideal S2x2048x512 .f32) (x2 : FVec Ideal S2x2048x2048 .f32)
    (x3 : FVec Ideal S2x512x256 .f32) (x4 : FVec Ideal S2x256 .f32) (x5 : FVec Ideal S2x512x256 .f32) (x6 : FVec Ideal S2x256 .f32) (r : Fin 2048) (d : Fin 256) :
    val_main_v28 (F := Ideal) x0 x1 x2 x3 x4 x5 x6 (ix2 r d)
      = rowStep (fun n => x2 (ix3 (0 : Fin 2) r n)) (fun n c => x1 (ix3 (0 : Fin 2) n c)) (fun c d => x3 (ix3 (0 : Fin 2) c d))
          (fun d => x4 (ix2 (0 : Fin 2) d)) (fun d e => x5 (ix3 (0 : Fin 2) (lo d) e)) (fun d e => x5 (ix3 (0 : Fin 2) (hi d) e))
          (fun e => x6 (ix2 (0 : Fin 2) e)) (fun d => x0 (ix2 r d)) d := by
  rw [step0_eq]
  refine (refStep_apply _ _ _ _ _ _ x0 r d).trans ?_
  exact rowStep_congr
      (funext fun n => slab_adj0 x2 (0 : Fin 1) r n)
      (funext fun n => funext fun c => slab_msg0 x1 (0 : Fin 1) n c)
      (funext fun c => funext fun d => slab_wagg0 x3 (0 : Fin 1) c d)
      (funext fun d => slab_bagg0 x4 (0 : Fin 1) d)
      (funext fun d => funext fun e => slab_wupd0 x5 (0 : Fin 1) (lo d) e)
      (funext fun d => funext fun e => slab_wupd0 x5 (0 : Fin 1) (hi d) e)
      (funext fun e => slab_bupd0 x6 (0 : Fin 1) e)
      rfl d

/-- The reference's result array is `resultArr` of the arguments. -/
theorem reference_value (x0 : FVec Ideal S2048x256 .f32) (x1 : FVec Ideal S2x2048x512 .f32) (x2 : FVec Ideal S2x2048x2048 .f32)
    (x3 : FVec Ideal S2x512x256 .f32) (x4 : FVec Ideal S2x256 .f32) (x5 : FVec Ideal S2x512x256 .f32) (x6 : FVec Ideal S2x256 .f32) :
    val_main_v57 (F := Ideal) x0 x1 x2 x3 x4 x5 x6 = resultArr x0 x1 x2 x3 x4 x5 x6 := by
  funext i
  obtain ⟨r, e, rfl⟩ : ∃ (r : Fin 2048) (e : Fin 256), i = ix2 r e := ⟨i 0, i 1, eq_ix2 i⟩
  rw [step1_eq]
  refine ((refStep_apply _ _ _ _ _ _ _ r e).trans ?_).trans (result_unfold x0 x1 x2 x3 x4 x5 x6 r e).symm
  exact rowStep_congr
      (funext fun n => slab_adj1 x2 (0 : Fin 1) r n)
      (funext fun n => funext fun c => slab_msg1 x1 (0 : Fin 1) n c)
      (funext fun c => funext fun d => slab_wagg1 x3 (0 : Fin 1) c d)
      (funext fun d => slab_bagg1 x4 (0 : Fin 1) d)
      (funext fun d => funext fun e => slab_wupd1 x5 (0 : Fin 1) (lo d) e)
      (funext fun d => funext fun e => slab_wupd1 x5 (0 : Fin 1) (hi d) e)
      (funext fun e => slab_bupd1 x6 (0 : Fin 1) e)
      (funext fun d => step0_apply x0 x1 x2 x3 x4 x5 x6 r d) e

end Cert.ReferenceIdeal.RefValue

end
-- ==== Proof.lean ====
/-
  The kernel computes a two-step graph message passing (a mean aggregation over a dense adjacency matrix, a linear layer
  with a rectifier, and an update of the agents' state from the concatenation of the embedding and the old state), row
  block by row block; the reference computes the same thing on whole arrays. At the exact values both results are
  `Cert.Dhgn.resultArr` of the seven arguments:

  • the kernel, because grid point `t` writes rows `512 t … 512 t + 511` of that function of the arguments and the four
    row blocks tile the result (KernelRow: the body's arithmetic at one entry; KernelArray: from blocks to the array);
  • the reference, because each of its two steps is the one-step function of the slabs it cuts (RefRow, RefValue).

  The two spellings differ in one place only. The reference multiplies the concatenation `[embedding, state]` by the
  whole 512 × 256 update matrix; the kernel multiplies the embedding by the upper 256 rows and the state by the lower 256
  rows and adds. A sum over 512 indices is the sum over the first 256 plus the sum over the last 256, in any commutative
  additive monoid, so the equality needs no finiteness and the precondition is never opened. The ideal pass rewrote
  nothing, so `preserves` is `True`. The three frames are the generated ones (the reference's is its generated run
  with the result forgotten).
-/
import proofs.«178996_g40089224740916_retrytranche2_1659_12_alg».proof.Defs
import proofs.«178996_g40089224740916_retrytranche2_1659_12_alg».proof.Proof.Gen.Kernel
import proofs.«178996_g40089224740916_retrytranche2_1659_12_alg».proof.Proof.Gen.Kernel.Skeleton
import proofs.«178996_g40089224740916_retrytranche2_1659_12_alg».proof.Proof.Gen.Kernel.Launch
import proofs.«178996_g40089224740916_retrytranche2_1659_12_alg».proof.Proof.Gen.Kernel.Points
import proofs.«178996_g40089224740916_retrytranche2_1659_12_alg».proof.Proof.Gen.Kernel.Frame
import proofs.«178996_g40089224740916_retrytranche2_1659_12_alg».proof.Proof.Gen.KernelIdeal
import proofs.«178996_g40089224740916_retrytranche2_1659_12_alg».proof.Proof.Gen.KernelIdeal.Skeleton
import proofs.«178996_g40089224740916_retrytranche2_1659_12_alg».proof.Proof.Gen.KernelIdeal.Launch
import proofs.«178996_g40089224740916_retrytranche2_1659_12_alg».proof.Proof.Gen.KernelIdeal.Points
import proofs.«178996_g40089224740916_retrytranche2_1659_12_alg».proof.Proof.Gen.KernelIdeal.Frame
import proofs.«178996_g40089224740916_retrytranche2_1659_12_alg».proof.Proof.Gen.ReferenceIdeal
import proofs.«178996_g40089224740916_retrytranche2_1659_12_alg».proof.Proof.Gen.Pre_finite_inputs
import proofs.«178996_g40089224740916_retrytranche2_1659_12_alg».proof.Proof.Gen.KernelIdeal.Value
import proofs.«178996_g40089224740916_retrytranche2_1659_12_alg».proof.Proof.Gen.ReferenceIdeal.Run
import proofs.«178996_g40089224740916_retrytranche2_1659_12_alg».proof.Proof.Gen.ReferenceIdeal.Read
import proofs.«178996_g40089224740916_retrytranche2_1659_12_alg».proof.Proof.KernelArray
import proofs.«178996_g40089224740916_retrytranche2_1659_12_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array `resultArr` of the kernel's
    arguments: the kernel by its blocks, the reference by its two steps, the agreement rewritten argument by argument. -/
theorem algebraic : Cert.algebraic_KernelIdeal_ReferenceIdeal := by
  intro m ρ m' ρ' _ hagree
  refine ⟨fun c => Cert.Dhgn.resultArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, Cert.ReferenceIdeal.RefValue.reference_value,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
